-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S2000000 : Shape := ⟨1, ![2000000]⟩
abbrev S500000 : Shape := ⟨1, ![500000]⟩
abbrev S128x128 : Shape := ⟨2, ![128, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg13 : FVec F S128x128 .f32) (main_arg14 : FVec F S128x128 .f32) (main_arg15 : FVec F S128x128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_v33

def fn {F : FTy → Type} [FloatOps F] (main_arg0 : FVec F S200000x128 .f32) (main_arg1 : FVec F S100000x128 .f32) (main_arg2 : IVec S2000000 32) (main_arg3 : IVec S2000000 32) (main_arg4 : IVec S2000000 32) (main_arg5 : IVec S2000000 32) (main_arg6 : IVec S500000 32) (main_arg7 : IVec S500000 32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_arg15 main_v13 main_v16
-- ==== Kernel.lean ====
abbrev S200000x128 : Shape := ⟨2, ![200000, 128]⟩
abbrev S100000x128 : Shape := ⟨2, ![100000, 128]⟩
abbrev S2000000 : Shape := ⟨1, ![2000000]⟩
abbrev S500000 : Shape := ⟨1, ![500000]⟩
abbrev S128x128 : Shape := ⟨2, ![128, 128]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S200000 : Shape := ⟨1, ![200000]⟩
abbrev S200000x1 : Shape := ⟨2, ![200000, 1]⟩
abbrev S2000000x128 : Shape := ⟨2, ![2000000, 128]⟩
abbrev S4000x128 : Shape := ⟨2, ![4000, 128]⟩
abbrev S4000x1 : Shape := ⟨2, ![4000, 1]⟩
abbrev S500000x1 : Shape := ⟨2, ![500000, 1]⟩
abbrev S500000x128 : Shape := ⟨2, ![500000, 128]⟩
abbrev S4000 : Shape := ⟨1, ![4000]⟩

abbrev nBuf : Space → Nat
  | .hbm => 108
  | .vmem => 46
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S2000000, .i32⟩
  | .hbm, ⟨3, _⟩ => ⟨S2000000, .i32⟩
  | .hbm, ⟨4, _⟩ => ⟨S2000000, .i32⟩
  | .hbm, ⟨5, _⟩ => ⟨S2000000, .i32⟩
  | .hbm, ⟨6, _⟩ => ⟨S500000, .i32⟩
  | .hbm, ⟨7, _⟩ => ⟨S500000, .i32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S2000000, .f32⟩
  | .hbm, ⟨18, _⟩ => ⟨S_, .f32⟩
  | .hbm, ⟨19, _⟩ => ⟨S100000, .f32⟩
  | .hbm, ⟨20, _⟩ => ⟨S2000000x1, .i32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S2000000, .f32⟩
  | .hbm, ⟨25, _⟩ => ⟨S_, .f32⟩
  | .hbm, ⟨26, _⟩ => ⟨S200000, .f32⟩
  | .hbm, ⟨27, _⟩ => ⟨S2000000x1, .i32⟩
  | .hbm, ⟨28, _⟩ => ⟨S200000, .f32⟩
  | .hbm, ⟨29, _⟩ => ⟨S200000x1, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x128, .f32⟩
  | .hbm, ⟨39, _⟩ => ⟨S_, .f32⟩
  | .hbm, ⟨40, _⟩ => ⟨S100000x128, .f32⟩
  | .hbm, ⟨41, _⟩ => ⟨S2000000x1, .i32⟩
  | .hbm, ⟨42, _⟩ => ⟨S100000x128, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x128, .f32⟩
  | .hbm, ⟨52, _⟩ => ⟨S_, .f32⟩
  | .hbm, ⟨53, _⟩ => ⟨S200000x128, .f32⟩
  | .hbm, ⟨54, _⟩ => ⟨S2000000x1, .i32⟩
  | .hbm, ⟨55, _⟩ => ⟨S200000x128, .f32⟩
  | .hbm, ⟨56, _⟩ => ⟨S200000x128, .bf16⟩
  | .hbm, ⟨57, _⟩ => ⟨S100000x128, .bf16⟩
  | .hbm, ⟨58, _⟩ => ⟨S_, .i32⟩
  | .hbm, ⟨59, _⟩ => ⟨S2000000, .i32⟩
  | .hbm, ⟨60, _⟩ => ⟨S2000000, .i1⟩
  | .hbm, ⟨61, _⟩ => ⟨S_, .i32⟩
  | .hbm, ⟨62, _⟩ => ⟨S2000000, .i32⟩
  | .hbm, ⟨63, _⟩ => ⟨S2000000, .i32⟩
  | .hbm, ⟨64, _⟩ => ⟨S2000000, .i32⟩
  | .hbm, ⟨65, _⟩ => ⟨S2000000x1, .i32⟩
  | .hbm, ⟨66, _⟩ => ⟨S2000000x128, .bf16⟩
  | .hbm, ⟨67, _⟩ => ⟨S2000000x128, .f32⟩
  | .hbm, ⟨68, _⟩ => ⟨S_, .f32⟩
  | .hbm, ⟨69, _⟩ => ⟨S100000x128, .f32⟩
  | .hbm, ⟨70, _⟩ => ⟨S2000000x1, .i32⟩
  | .hbm, ⟨71, _⟩ => ⟨S100000x128, .f32⟩
  | .hbm, ⟨72, _⟩ => ⟨S_, .i32⟩
  | .hbm, ⟨73, _⟩ => ⟨S2000000, .i32⟩
  | .hbm, ⟨74, _⟩ => ⟨S2000000, .i1⟩
  | .hbm, ⟨75, _⟩ => ⟨S_, .i32⟩
  | .hbm, ⟨76, _⟩ => ⟨S2000000, .i32⟩
  | .hbm, ⟨77, _⟩ => ⟨S2000000, .i32⟩
  | .hbm, ⟨78, _⟩ => ⟨S2000000, .i32⟩
  | .hbm, ⟨79, _⟩ => ⟨S2000000x1, .i32⟩
  | .hbm, ⟨80, _⟩ => ⟨S2000000x128, .bf16⟩
  | .hbm, ⟨81, _⟩ => ⟨S2000000x128, .f32⟩
  | .hbm, ⟨82, _⟩ => ⟨S_, .f32⟩
  | .hbm, ⟨83, _⟩ => ⟨S200000x128, .f32⟩
  | .hbm, ⟨84, _⟩ => ⟨S2000000x1, .i32⟩
  | .hbm, ⟨85, _⟩ => ⟨S200000x128, .f32⟩
  | .hbm, ⟨86, _⟩ => ⟨S200000x128, .bf16⟩
  | .hbm, ⟨87, _⟩ => ⟨S100000x128, .bf16⟩
  | .hbm, ⟨88, _⟩ => ⟨S_, .i32⟩
  | .hbm, ⟨89, _⟩ => ⟨S500000, .i32⟩
  | .hbm, ⟨90, _⟩ => ⟨S500000, .i1⟩
  | .hbm, ⟨91, _⟩ => ⟨S_, .i32⟩
  | .hbm, ⟨92, _⟩ => ⟨S500000, .i32⟩
  | .hbm, ⟨93, _⟩ => ⟨S500000, .i32⟩
  | .hbm, ⟨94, _⟩ => ⟨S500000, .i32⟩
  | .hbm, ⟨95, _⟩ => ⟨S500000x1, .i32⟩
  | .hbm, ⟨96, _⟩ => ⟨S500000x128, .bf16⟩
  | .hbm, ⟨97, _⟩ => ⟨S_, .i32⟩
  | .hbm, ⟨98, _⟩ => ⟨S500000, .i32⟩
  | .hbm, ⟨99, _⟩ => ⟨S500000, .i1⟩
  | .hbm, ⟨100, _⟩ => ⟨S_, .i32⟩
  | .hbm, ⟨101, _⟩ => ⟨S500000, .i32⟩
  | .hbm, ⟨102, _⟩ => ⟨S500000, .i32⟩
  | .hbm, ⟨103, _⟩ => ⟨S500000, .i32⟩
  | .hbm, ⟨104, _⟩ => ⟨S500000x1, .i32⟩
  | .hbm, ⟨105, _⟩ => ⟨S500000x128, .bf16⟩
  | .hbm, ⟨106, _⟩ => ⟨S500000x1, .f32⟩
  | .hbm, ⟨107, _⟩ => ⟨S500000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S128x128, .f32⟩
  | .local _ .vmem, ⟨17, _⟩ => ⟨S128x128, .f32⟩
  | .local _ .vmem, ⟨18, _⟩ => ⟨S4000x128, .bf16⟩
  | .local _ .vmem, ⟨19, _⟩ => ⟨S4000x128, .bf16⟩
  | .local _ .vmem, ⟨20, _⟩ => ⟨S4000x128, .bf16⟩
  | .local _ .vmem, ⟨21, _⟩ => ⟨S4000x128, .bf16⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S128x128, .f32⟩
  | .local _ .vmem, ⟨27, _⟩ => ⟨S128x128, .f32⟩
  | .local _ .vmem, ⟨28, _⟩ => ⟨S4000x128, .bf16⟩
  | .local _ .vmem, ⟨29, _⟩ => ⟨S4000x128, .bf16⟩
  | .local _ .vmem, ⟨30, _⟩ => ⟨S4000x128, .bf16⟩
  | .local _ .vmem, ⟨31, _⟩ => ⟨S4000x128, .bf16⟩
  | .local _ .vmem, ⟨32, _⟩ => ⟨S4000x128, .f32⟩
  | .local _ .vmem, ⟨33, _⟩ => ⟨S4000x128, .f32⟩
  | .local _ .vmem, ⟨34, _⟩ => ⟨S4000x1, .f32⟩
  | .local _ .vmem, ⟨35, _⟩ => ⟨S4000x1, .f32⟩
  | .local _ .vmem, ⟨36, _⟩ => ⟨S128x128, .f32⟩
  | .local _ .vmem, ⟨37, _⟩ => ⟨S128x128, .f32⟩
  | .local _ .vmem, ⟨38, _⟩ => ⟨S4000x128, .bf16⟩
  | .local _ .vmem, ⟨39, _⟩ => ⟨S4000x128, .bf16⟩
  | .local _ .vmem, ⟨40, _⟩ => ⟨S4000x128, .bf16⟩
  | .local _ .vmem, ⟨41, _⟩ => ⟨S4000x128, .bf16⟩
  | .local _ .vmem, ⟨42, _⟩ => ⟨S4000x128, .bf16⟩
  | .local _ .vmem, ⟨43, _⟩ => ⟨S4000x128, .bf16⟩
  | .local _ .vmem, ⟨44, _⟩ => ⟨S4000x1, .f32⟩
  | .local _ .vmem, ⟨45, _⟩ => ⟨S4000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_5 : Ref sig .tc := ⟨.hbm, 43, rfl⟩
abbrev main_v20 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_c_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_11 : Ref sig .tc := ⟨.hbm, 72, rfl⟩
abbrev main_v43 : Ref sig .tc := ⟨.hbm, 73, rfl⟩
abbrev main_v44 : Ref sig .tc := ⟨.hbm, 74, rfl⟩
abbrev main_c_12 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_14 : Ref sig .tc := ⟨.hbm, 88, rfl⟩
abbrev main_v56 : Ref sig .tc := ⟨.hbm, 89, rfl⟩
abbrev main_v57 : Ref sig .tc := ⟨.hbm, 90, rfl⟩
abbrev main_c_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_16 : Ref sig .tc := ⟨.hbm, 97, rfl⟩
abbrev main_v63 : Ref sig .tc := ⟨.hbm, 98, rfl⟩
abbrev main_v64 : Ref sig .tc := ⟨.hbm, 99, rfl⟩
abbrev main_c_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S100000_S100000x1_0 : S100000.BroadcastsInDim S100000x1 (![0] : Fin 1 → Fin S100000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S100000x128 : S_.BroadcastsInDim S100000x128 (![] : Fin 0 → Fin S100000x128.rank)
  bcast_S_S200000x128 : S_.BroadcastsInDim S200000x128 (![] : Fin 0 → Fin S200000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S_S500000 : S_.BroadcastsInDim S500000 (![] : Fin 0 → Fin S500000.rank)
  bcast_S500000_S500000x1_0 : S500000.BroadcastsInDim S500000x1 (![0] : Fin 1 → Fin S500000x1.rank)
  reduces_S4000x128_S4000 : S4000x128.Reduces [1] S4000
  shapeCasts_S4000_S4000x1 : S4000.ShapeCasts S4000x1
  shapeCasts_S500000x1_S500000 : S500000x1.ShapeCasts S500000
  scatter_S100000_S2000000x1_S2000000_n_0_0_1_wf : ScatterDims.WF S100000 S2000000x1 S2000000 [] [0] [0] 1
  scatter_S200000_S2000000x1_S2000000_n_0_0_1_wf : ScatterDims.WF S200000 S2000000x1 S2000000 [] [0] [0] 1
  gather_S200000x128_S2000000x1_S2000000x128_1_0_n_n_0_1_1128_wf : GatherDims.WF S200000x128 S2000000x1 S2000000x128 [1] [0] [] [0] [] 1 ![1, 128]
  scatter_S100000x128_S2000000x1_S2000000x128_1_0_0_1_wf : ScatterDims.WF S100000x128 S2000000x1 S2000000x128 [1] [0] [0] 1
  gather_S100000x128_S2000000x1_S2000000x128_1_0_n_n_0_1_1128_wf : GatherDims.WF S100000x128 S2000000x1 S2000000x128 [1] [0] [] [0] [] 1 ![1, 128]
  scatter_S200000x128_S2000000x1_S2000000x128_1_0_0_1_wf : ScatterDims.WF S200000x128 S2000000x1 S2000000x128 [1] [0] [0] 1
  dot_S4000x128_S128x128_S4000x128_1_0_0_1_n_n_wf : DotDims.WF S4000x128 S128x128 S4000x128 [1] [0] [0] [1] [] []
  gather_S200000x128_S500000x1_S500000x128_1_0_n_n_0_1_1128_wf : GatherDims.WF S200000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S200000x1.size a
  hwx0_2 : ∀ i : grid0.Coords, EltTy.bits .f32 = 32 ∨ (Rect.block (s := S200000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S200000x128.size a
  hwx0_5 : ∀ i : grid0.Coords, EltTy.bits .bf16 = 32 ∨ (Rect.block (s := S200000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .bf16 = 32 ∨ (Rect.block (s := S200000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .f32 = 32 ∨ (Rect.block (s := S200000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S200000x128.size a
  hwx2_5 : ∀ i : grid2.Coords, EltTy.bits .bf16 = 32 ∨ (Rect.block (s := S200000x128) S4000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .bf16 = 32 ∨ (Rect.block (s := S100000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .bf16 = 32 ∨ (Rect.block (s := S100000x128) S4000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S500000x128.size a
  hwx4_0 : ∀ i : grid4.Coords, EltTy.bits .bf16 = 32 ∨ (Rect.block (s := S500000x128) S4000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S500000x128.size a
  hwx4_1 : ∀ i : grid4.Coords, EltTy.bits .bf16 = 32 ∨ (Rect.block (s := S500000x128) S4000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S500000x1.size a
  hwx4_2 : ∀ i : grid4.Coords, EltTy.bits .f32 = 32 ∨ (Rect.block (s := S500000x1) S4000x1.size (cc4_transform_2 i) (hinb4_2 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v31) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S4000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S2000000 : Shape := ⟨1, ![2000000]⟩
abbrev S500000 : Shape := ⟨1, ![500000]⟩
abbrev S128x128 : Shape := ⟨2, ![128, 128]⟩
abbrev S_ : Shape := ⟨0, ![]⟩
abbrev S2000000x1 : Shape := ⟨2, ![2000000, 1]⟩
abbrev S2000000x128 : Shape := ⟨2, ![2000000, 128]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S500000x1 : Shape := ⟨2, ![500000, 1]⟩
abbrev S500000x128 : Shape := ⟨2, ![500000, 128]⟩

abbrev nBuf : Space → Nat
  | .hbm => 155
  | .vmem => 0
  | .smem => 0
  | _ => 0

abbrev hbmTy0_0 (i : Nat) : BufTy := match i % 128 with
  | 0 => ⟨S200000x128, .f32⟩
  | 1 => ⟨S100000x128, .f32⟩
  | 2 => ⟨S2000000, .i32⟩
  | 3 => ⟨S2000000, .i32⟩
  | 4 => ⟨S2000000, .i32⟩
  | 5 => ⟨S2000000, .i32⟩
  | 6 => ⟨S500000, .i32⟩
  | 7 => ⟨S500000, .i32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S128x128, .f32⟩
  | 16 => ⟨S_, .i32⟩
  | 17 => ⟨S2000000, .i32⟩
  | 18 => ⟨S2000000, .i1⟩
  | 19 => ⟨S_, .i32⟩
  | 20 => ⟨S2000000, .i32⟩
  | 21 => ⟨S2000000, .i32⟩
  | 22 => ⟨S2000000, .i32⟩
  | 23 => ⟨S2000000x1, .i32⟩
  | 24 => ⟨S2000000x128, .f32⟩
  | 25 => ⟨S_, .f32⟩
  | 26 => ⟨S100000x128, .f32⟩
  | 27 => ⟨S2000000x1, .i32⟩
  | 28 => ⟨S100000x128, .f32⟩
  | 29 => ⟨S_, .f32⟩
  | 30 => ⟨S2000000, .f32⟩
  | 31 => ⟨S_, .f32⟩
  | 32 => ⟨S100000, .f32⟩
  | 33 => ⟨S2000000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S_, .i32⟩
  | 42 => ⟨S2000000, .i32⟩
  | 43 => ⟨S2000000, .i1⟩
  | 44 => ⟨S_, .i32⟩
  | 45 => ⟨S2000000, .i32⟩
  | 46 => ⟨S2000000, .i32⟩
  | 47 => ⟨S2000000, .i32⟩
  | 48 => ⟨S2000000x1, .i32⟩
  | 49 => ⟨S2000000x128, .f32⟩
  | 50 => ⟨S_, .f32⟩
  | 51 => ⟨S200000x128, .f32⟩
  | 52 => ⟨S2000000x1, .i32⟩
  | 53 => ⟨S200000x128, .f32⟩
  | 54 => ⟨S_, .f32⟩
  | 55 => ⟨S2000000, .f32⟩
  | 56 => ⟨S_, .f32⟩
  | 57 => ⟨S200000, .f32⟩
  | 58 => ⟨S2000000x1, .i32⟩
  | 59 => ⟨S200000, .f32⟩
  | 60 => ⟨S_, .f32⟩
  | 61 => ⟨S200000, .f32⟩
  | 62 => ⟨S200000, .f32⟩
  | 63 => ⟨S200000x1, .f32⟩
  | 64 => ⟨S200000x128, .f32⟩
  | 65 => ⟨S200000x128, .f32⟩
  | 66 => ⟨S200000x128, .f32⟩
  | 67 => ⟨S200000x128, .f32⟩
  | 68 => ⟨S200000x128, .f32⟩
  | 69 => ⟨S100000x128, .f32⟩
  | 70 => ⟨S100000x128, .f32⟩
  | 71 => ⟨S100000x128, .f32⟩
  | 72 => ⟨S_, .f32⟩
  | 73 => ⟨S200000x128, .f32⟩
  | 74 => ⟨S200000x128, .f32⟩
  | 75 => ⟨S_, .f32⟩
  | 76 => ⟨S100000x128, .f32⟩
  | 77 => ⟨S100000x128, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x128, .f32⟩
  | 87 => ⟨S_, .f32⟩
  | 88 => ⟨S100000x128, .f32⟩
  | 89 => ⟨S2000000x1, .i32⟩
  | 90 => ⟨S100000x128, .f32⟩
  | 91 => ⟨S_, .f32⟩
  | 92 => ⟨S2000000, .f32⟩
  | 93 => ⟨S_, .f32⟩
  | 94 => ⟨S100000, .f32⟩
  | 95 => ⟨S2000000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x128, .f32⟩
  | 112 => ⟨S_, .f32⟩
  | 113 => ⟨S200000x128, .f32⟩
  | 114 => ⟨S2000000x1, .i32⟩
  | 115 => ⟨S200000x128, .f32⟩
  | 116 => ⟨S_, .f32⟩
  | 117 => ⟨S2000000, .f32⟩
  | 118 => ⟨S_, .f32⟩
  | 119 => ⟨S200000, .f32⟩
  | 120 => ⟨S2000000x1, .i32⟩
  | 121 => ⟨S200000, .f32⟩
  | 122 => ⟨S_, .f32⟩
  | 123 => ⟨S200000, .f32⟩
  | 124 => ⟨S200000, .f32⟩
  | 125 => ⟨S200000x1, .f32⟩
  | 126 => ⟨S200000x128, .f32⟩
  | 127 => ⟨S200000x128, .f32⟩
  | _ => ⟨S200000x128, .f32⟩

abbrev hbmTy0_1 (i : Nat) : BufTy := match i % 128 with
  | 0 => ⟨S200000x128, .f32⟩
  | 1 => ⟨S200000x128, .f32⟩
  | 2 => ⟨S200000x128, .f32⟩
  | 3 => ⟨S100000x128, .f32⟩
  | 4 => ⟨S100000x128, .f32⟩
  | 5 => ⟨S100000x128, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x128, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x128, .f32⟩
  | 24 => ⟨S500000x128, .f32⟩
  | 25 => ⟨S_, .f32⟩
  | 26 => ⟨S500000, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call0_cst : Ref sig .tc := ⟨.hbm, 72, rfl⟩
abbrev main_call0_v0 : Ref sig .tc := ⟨.hbm, 73, rfl⟩
abbrev main_v44 : Ref sig .tc := ⟨.hbm, 74, rfl⟩
abbrev main_call1_cst : Ref sig .tc := ⟨.hbm, 75, rfl⟩
abbrev main_call1_v0 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_c_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_16 : Ref sig .tc := ⟨.hbm, 103, rfl⟩
abbrev main_v65 : Ref sig .tc := ⟨.hbm, 104, rfl⟩
abbrev main_v66 : Ref sig .tc := ⟨.hbm, 105, rfl⟩
abbrev main_c_17 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_18 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_19 : Ref sig .tc := ⟨.hbm, 116, rfl⟩
abbrev main_v75 : Ref sig .tc := ⟨.hbm, 117, rfl⟩
abbrev main_cst_20 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_21 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_22 : Ref sig .tc := ⟨.hbm, 134, rfl⟩
abbrev main_v90 : Ref sig .tc := ⟨.hbm, 135, rfl⟩
abbrev main_v91 : Ref sig .tc := ⟨.hbm, 136, rfl⟩
abbrev main_c_23 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_24 : Ref sig .tc := ⟨.hbm, 143, rfl⟩
abbrev main_v97 : Ref sig .tc := ⟨.hbm, 144, rfl⟩
abbrev main_v98 : Ref sig .tc := ⟨.hbm, 145, rfl⟩
abbrev main_c_25 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_26 : Ref sig .tc := ⟨.hbm, 153, rfl⟩
abbrev main_v105 : Ref sig .tc := ⟨.hbm, 154, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  gather_S200000x128_S2000000x1_S2000000x128_1_0_n_n_0_1_1128_wf : GatherDims.WF S200000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  gather_S100000x128_S2000000x1_S2000000x128_1_0_n_n_0_1_1128_wf : GatherDims.WF S100000x128 S2000000x1 S2000000x128 [1] [0] [] [0] [] 1 ![1, 128]
  scatter_S200000x128_S2000000x1_S2000000x128_1_0_0_1_wf : ScatterDims.WF S200000x128 S2000000x1 S2000000x128 [1] [0] [0] 1
  scatter_S200000_S2000000x1_S2000000_n_0_0_1_wf : ScatterDims.WF S200000 S2000000x1 S2000000 [] [0] [0] 1
  dot_S200000x128_S128x128_S200000x128_1_0_0_1_n_n_wf : DotDims.WF S200000x128 S128x128 S200000x128 [1] [0] [0] [1] [] []
  dot_S100000x128_S128x128_S100000x128_1_0_0_1_n_n_wf : DotDims.WF S100000x128 S128x128 S100000x128 [1] [0] [0] [1] [] []
  gather_S200000x128_S500000x1_S500000x128_1_0_n_n_0_1_1128_wf : GatherDims.WF S200000x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]

variable [Facts₀]

def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

class Facts : Prop extends Facts₀ where

variable [Facts]
-- ==== Proof.KernelRun.lean ====
/-
  The kernel program's run with its result named.

  The program is five pallas_calls among four stretches of host operations. Its run from any memory with zero counters
  terminates without a fault; at the end every buffer that lives for the whole program holds the contents obtained by
  folding the host stretches and the regions' write-backs over the launch memory. Here that final state is read at the
  result buffer as well as at the arguments: the result holds the fold's value at the result buffer, the arguments are
  as launched.
-/
import proofs.«134598_j69518340653459_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the value the fold
    of the segments leaves there and the argument arrays as launched. -/
theorem run : θ_run defs (onTc (τ := τ) (main (F := F))) ⟨m, fun _ => 0, ρ⟩ (fun r => ∀ c : Dev nD,
      r.2.mem ((c.tc : Thread nD τ).loc main_v71) = W9 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v71 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

end Cert.KernelIdeal.RunV

end
-- ==== Proof.Fold.lean ====
/-
  Reading a buffer through the kernel program's fold.

  Between the launch and the return the program's long-lived buffers change in nine steps: four stretches of host
  operations, each of which writes only its own result buffers, and five pallas_calls, each of which writes only its
  output array. So a buffer's contents at any boundary are found by walking back: through a host stretch that does not
  write it, through a region whose arrays do not include it, until the step that produced it — or the launch memory, for
  an argument. This module states those walks once, for an arbitrary buffer, under side conditions that are decided by
  looking the buffer up in the list of what each step writes.
-/
import proofs.«134598_j69518340653459_2_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]

/-- The buffers the first host stretch writes: its operations' results, in order. -/
abbrev written0 : List (Ref sig .tc) := [main_cst, main_v0, main_cst_0, main_v1, main_v2, main_v3, main_v4, main_cst_1, main_v5, main_cst_2, main_v6, main_v7, main_v8, main_v9, main_c, main_v10, main_v11, main_c_3, main_v12, main_v13, main_v14, main_v15, main_v16, main_cst_4, main_v17, main_v18, main_v19, main_c_5, main_v20, main_v21, main_c_6, main_v22, main_v23, main_v24, main_v25, main_v26, main_cst_7, main_v27, main_v28, main_v29]
/-- The buffers the second host stretch (between the two layers) writes. -/
abbrev written2 : List (Ref sig .tc) := [main_c_8, main_v32, main_v33, main_c_9, main_v34, main_v35, main_v36, main_v37, main_v38, main_v39, main_cst_10, main_v40, main_v41, main_v42, main_c_11, main_v43, main_v44, main_c_12, main_v45, main_v46, main_v47, main_v48, main_v49, main_v50, main_cst_13, main_v51, main_v52, main_v53]

theorem written0_covers : (hostOps0 : List (HloOp τ sig (Elt F))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, Finset.singleton_subset_iff, List.mem_toFinset]; exact List.mem_map_of_mem (by decide))

theorem written2_covers : (hostOps2 : List (HloOp τ sig (Elt F))).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes, Finset.singleton_subset_iff, List.mem_toFinset]; exact List.mem_map_of_mem (by decide))

variable (m : (ℓ : Loc nD τ sig) → Buf (Elt F) ℓ) (ρ : Dev nD → PrngReg) (c : Dev nD)

/-- Through the first host stretch. -/
theorem back1 (r : Ref sig .tc) (h : r ∉ written0) : W1 m ρ c (Proc.devRef .tc r) = m ((c : Thread nD τ).loc r) :=
  StableHlo.after_of_writes_sub hostOps0 _ written0_covers h
/-- … and through the first region. -/
theorem back2 (r : Ref sig .tc) (h0 : ∀ w, Pipeline.arrRef spec0 w ≠ r) (h : r ∉ written0) :
    W2 m ρ c (Proc.devRef .tc r) = m ((c : Thread nD τ).loc r) :=
  (W2_of_ne m ρ c r h0).trans (back1 m ρ c r h)
/-- … and through the second region. -/
theorem back3 (r : Ref sig .tc) (h1 : ∀ w, Pipeline.arrRef spec1 w ≠ r) (h0 : ∀ w, Pipeline.arrRef spec0 w ≠ r) (h : r ∉ written0) :
    W3 m ρ c (Proc.devRef .tc r) = m ((c : Thread nD τ).loc r) :=
  (W3_of_ne m ρ c r h1).trans (back2 m ρ c r h0 h)
/-- Through the second host stretch, for a buffer it does not write. -/
theorem keep4 (r : Ref sig .tc) (h : r ∉ written2) : W4 m ρ c (Proc.devRef .tc r) = W3 m ρ c (Proc.devRef .tc r) :=
  StableHlo.after_of_writes_sub hostOps2 _ written2_covers h
theorem back4 (r : Ref sig .tc) (h2 : r ∉ written2) (h1 : ∀ w, Pipeline.arrRef spec1 w ≠ r) (h0 : ∀ w, Pipeline.arrRef spec0 w ≠ r) (h : r ∉ written0) :
    W4 m ρ c (Proc.devRef .tc r) = m ((c : Thread nD τ).loc r) :=
  (keep4 m ρ c r h2).trans (back3 m ρ c r h1 h0 h)
theorem back5 (r : Ref sig .tc) (h3 : ∀ w, Pipeline.arrRef spec2 w ≠ r) (h2 : r ∉ written2) (h1 : ∀ w, Pipeline.arrRef spec1 w ≠ r)
    (h0 : ∀ w, Pipeline.arrRef spec0 w ≠ r) (h : r ∉ written0) :
    W5 m ρ c (Proc.devRef .tc r) = m ((c : Thread nD τ).loc r) :=
  (W5_of_ne m ρ c r h3).trans (back4 m ρ c r h2 h1 h0 h)
theorem back6 (r : Ref sig .tc) (h4 : ∀ w, Pipeline.arrRef spec3 w ≠ r) (h3 : ∀ w, Pipeline.arrRef spec2 w ≠ r) (h2 : r ∉ written2)
    (h1 : ∀ w, Pipeline.arrRef spec1 w ≠ r) (h0 : ∀ w, Pipeline.arrRef spec0 w ≠ r) (h : r ∉ written0) :
    W6 m ρ c (Proc.devRef .tc r) = m ((c : Thread nD τ).loc r) :=
  (W6_of_ne m ρ c r h4).trans (back5 m ρ c r h3 h2 h1 h0 h)

end Cert.KernelIdeal.Fold

end
-- ==== Proof.Spec.lean ====
/-
  The mathematics both programs compute, entry by entry, on the extended reals.

  A node type's update takes the node's own feature row through one weight matrix and adds the MEAN of the
  messages that reached the node through another: the mean is the summed messages divided by the number of
  edges that end at the node, that number floored at one (so that a node no edge reaches keeps a zero mean).
  The first layer clamps the result at zero from below; the second does not. The score of a labelled pair is the
  inner product of the two nodes' second-layer rows.
-/
import Idealize.ShloMosaic.PureOps.Ideal
import Idealize.ShloMosaic.Lib.ValueIdx

noncomputable section

namespace Cert.Spec

open Idealize.ShloMosaic

/-- Entry `(p, q)` of a node type's update: `∑ₖ h[p,k]·Ws[k,q] + ∑ₖ (s[p,k] / max(cnt[p], 1))·Wa[k,q]`, the one
    written as the bit pattern of the float `1.0` (the same word in both programs, never evaluated). -/
def comb {n : ℕ} (h s : Fin n → Fin 128 → EReal) (cnt : Fin n → EReal) (Ws Wa : Fin 128 → Fin 128 → EReal)
    (p : Fin n) (q : Fin 128) : EReal :=
  (∑ k : Fin 128, h p k * Ws k q)
    + ∑ k : Fin 128, Ideal.div (s p k) (max (cnt p) (Ideal.ofBits .f32 0x3F800000#32)) * Wa k q

/-- The clamp at zero from below, zero written as the bit pattern of the float `0.0`. -/
def relu (x : EReal) : EReal := max x (Ideal.ofBits .f32 0x00000000#32)

/-- The inner product of row `r` of two 128-column arrays. -/
def score {n : ℕ} (zu zi : Fin n → Fin 128 → EReal) (r : Fin n) : EReal := ∑ k : Fin 128, zu r k * zi r k

end Cert.Spec

end
-- ==== Proof.PayComb.lean ====
/-
  The kernels' bodies, read at one entry of the output block, on the extended reals.

  A combine body takes a block of 4000 rows: the node's own rows `x0`, the summed messages `x1`, the edge counts
  `x2` (one column), and the two weight matrices. Its store holds, at row `p` and column `q`, the update of
  `Cert.Spec.comb` (clamped at zero in the first layer); every change of float format in between is the identity
  on the extended reals, and a matrix product into a zero accumulator is the plain sum over the contracted index.
  The score body stores, at row `p`, the inner product of the two blocks' rows.
-/
import proofs.«134598_j69518340653459_2_alg».proof.Proof.Gen.KernelIdeal.Skeleton
import proofs.«134598_j69518340653459_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The left operand's row coordinate at output entry `i` is the output's row. -/
theorem lhs_row (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column coordinate is the contracted index. -/
theorem lhs_col (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c

/-- The right operand's row coordinate is the contracted index. -/
theorem rhs_row (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c

/-- The right operand's column coordinate at output entry `i` is the output's column. -/
theorem rhs_col (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A matrix product into a zero accumulator, read at row `p` and column `q`: the sum over the contracted index. -/
theorem mm_apply {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun c => Fin.ext (by
    match c with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun c => Fin.ext (by
    match c with
    | ⟨0, _⟩ => exact (rhs_row _ _).trans hk
    | ⟨1, _⟩ => exact rhs_col _ _)
  rw [el, er]

/-- A one-column array broadcast along the rows: entry `(p, q)` is the column's entry at row `p`. -/
theorem bcol_apply {α : Type} (v : S4000x1.Idx → α) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) fun ax => ?_
  match ax with
  | ⟨0, _⟩ => rfl
  | ⟨1, _⟩ => rfl

/-- A vector of 4000 entries cast to one column: entry `(p, 0)` is the vector's entry `p`. -/
theorem ccol_apply {α : Type} (v : S4000.Idx → α) (p : Fin 4000) :
    shapeCast S4000x1 v shapeCasts_S4000_S4000x1 (ix2 p (0 : Fin 1)) = v (ix1 p) :=
  shapeCast_apply v shapeCasts_S4000_S4000x1 _ _ (by
    rw [Shape.rowMajor_val_two, Shape.rowMajor_val_one]
    show p.val = p.val * 1 + 0
    omega)

/-- The sum along the 128 columns, read at row `p`. -/
theorem lanesum_apply (v : FVec Ideal S4000x128 .f32) (hφ : FKind.Formats FTy.f32)
    (hacc : (0x00000000#32 : BitVec 32) = 0x00000000#32) (p : Fin 4000) :
    multiReduction (F := Ideal) .add [1] S4000 v 0x00000000#32 reduces_S4000x128_S4000 hφ hacc (ix1 p)
      = ∑ k : Fin 128, v (ix2 p k) := by
  refine (Ideal.multiReduction_add_single v 0x00000000#32 reduces_S4000x128_S4000 hφ hacc (ix1 p)).trans ?_
  refine Finset.sum_congr rfl fun k _ => congrArg v (funext fun c => Fin.ext ?_)
  rw [Shape.Reduces.lift_val]
  unfold Shape.Reduces.liftVal
  match c with
  | ⟨0, _⟩ => rfl
  | ⟨1, _⟩ => rfl

theorem pay0 (x0 x1 : Vec Ideal S4000x128 .f32) (x2 : Vec Ideal S4000x1 .f32) (x3 x4 : Vec Ideal S128x128 .f32)
    (p : Fin 4000) (q : Fin 128) :
    k0_pay1 (F := Ideal) x0 x1 x2 x3 x4 (ix2 p q)
      = Cert.Spec.relu (Cert.Spec.comb (fun p k => x0 (ix2 p k)) (fun p k => x1 (ix2 p k)) (fun p => x2 (ix2 p (0 : Fin 1)))
          (fun k q => x3 (ix2 k q)) (fun k q => x4 (ix2 k q)) p q) := by
  unfold k0_pay1
  simp only [truncf_apply, maximumf_apply, addf_apply, broadcast_apply]
  rw [mm_apply, mm_apply]
  simp only [truncf_apply, divf_apply, bcol_apply, maximumf_apply, broadcast_apply, shapeCast_self]
  rfl

theorem pay1 (x0 x1 : Vec Ideal S4000x128 .f32) (x2 : Vec Ideal S4000x1 .f32) (x3 x4 : Vec Ideal S128x128 .f32)
    (p : Fin 4000) (q : Fin 128) :
    k1_pay1 (F := Ideal) x0 x1 x2 x3 x4 (ix2 p q)
      = Cert.Spec.relu (Cert.Spec.comb (fun p k => x0 (ix2 p k)) (fun p k => x1 (ix2 p k)) (fun p => x2 (ix2 p (0 : Fin 1)))
          (fun k q => x3 (ix2 k q)) (fun k q => x4 (ix2 k q)) p q) := by
  unfold k1_pay1
  simp only [truncf_apply, maximumf_apply, addf_apply, broadcast_apply]
  rw [mm_apply, mm_apply]
  simp only [truncf_apply, divf_apply, bcol_apply, maximumf_apply, broadcast_apply, shapeCast_self]
  rfl

theorem pay2 (x0 : Vec Ideal S4000x128 .bf16) (x1 : Vec Ideal S4000x128 .f32) (x2 : Vec Ideal S4000x1 .f32) (x3 x4 : Vec Ideal S128x128 .f32)
    (p : Fin 4000) (q : Fin 128) :
    k2_pay1 (F := Ideal) x0 x1 x2 x3 x4 (ix2 p q)
      = Cert.Spec.comb (fun p k => x0 (ix2 p k)) (fun p k => x1 (ix2 p k)) (fun p => x2 (ix2 p (0 : Fin 1)))
          (fun k q => x3 (ix2 k q)) (fun k q => x4 (ix2 k q)) p q := by
  unfold k2_pay1
  simp only [truncf_apply, addf_apply]
  rw [mm_apply, mm_apply]
  simp only [truncf_apply, divf_apply, bcol_apply, maximumf_apply, broadcast_apply, shapeCast_self]
  rfl

theorem pay3 (x0 : Vec Ideal S4000x128 .bf16) (x1 : Vec Ideal S4000x128 .f32) (x2 : Vec Ideal S4000x1 .f32) (x3 x4 : Vec Ideal S128x128 .f32)
    (p : Fin 4000) (q : Fin 128) :
    k3_pay1 (F := Ideal) x0 x1 x2 x3 x4 (ix2 p q)
      = Cert.Spec.comb (fun p k => x0 (ix2 p k)) (fun p k => x1 (ix2 p k)) (fun p => x2 (ix2 p (0 : Fin 1)))
          (fun k q => x3 (ix2 k q)) (fun k q => x4 (ix2 k q)) p q := by
  unfold k3_pay1
  simp only [truncf_apply, addf_apply]
  rw [mm_apply, mm_apply]
  simp only [truncf_apply, divf_apply, bcol_apply, maximumf_apply, broadcast_apply, shapeCast_self]
  rfl

theorem pay4 (x0 x1 : Vec Ideal S4000x128 .bf16) (p : Fin 4000) :
    k4_pay1 (F := Ideal) x0 x1 (ix2 p (0 : Fin 1))
      = Cert.Spec.score (fun p k => x0 (ix2 p k)) (fun p k => x1 (ix2 p k)) p := by
  unfold k4_pay1
  simp only [ccol_apply]
  refine (lanesum_apply _ _ _ p).trans ?_
  simp only [mulf_apply, extf_apply, shapeCast_self]
  rfl

end Cert.KernelIdeal.Pay

end
-- ==== Proof.Blocks0.lean ====
/-
  Region 0 of the kernel program, from blocks to the whole array.

  The region runs the combine body once per block of 4000 rows: point `t` of the grid reads rows `4000·t … 4000·t + 3999` of the
  node rows, of the summed messages and of the count column, and both weight matrices whole, and writes the same rows of
  the output. The blocks tile the output array, so every entry of it is the body's entry for its row.
-/
import proofs.«134598_j69518340653459_2_alg».proof.Proof.Gen.KernelIdeal.Frame
import proofs.«134598_j69518340653459_2_alg».proof.Proof.PayComb
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of a whole-block access, however spelt. -/
theorem zero_off0 : (![0, 0] : Fin 2 → Nat) = fun _ => 0 := funext fun a => by fin_cases a <;> rfl

/-- The update of one row depends on that row of the three row arrays and on the weight matrices only: if row `p` of the
    blocks is row `r` of the arrays and the weights agree, the two updates agree. -/
theorem comb_row0 {n m : ℕ} (x0 x1 : Fin n → Fin 128 → EReal) (x2 : Fin n → EReal) (x3 x4 : Fin 128 → Fin 128 → EReal)
    (a0 a1 : Fin m → Fin 128 → EReal) (a2 : Fin m → EReal) (a3 a4 : Fin 128 → Fin 128 → EReal) (p : Fin n) (r : Fin m)
    (h0 : ∀ k, x0 p k = a0 r k) (h1 : ∀ k, x1 p k = a1 r k) (h2 : x2 p = a2 r)
    (h3 : ∀ k q, x3 k q = a3 k q) (h4 : ∀ k q, x4 k q = a4 k q) (q : Fin 128) :
    Cert.Spec.comb x0 x1 x2 x3 x4 p q = Cert.Spec.comb a0 a1 a2 a3 a4 r q := by
  unfold Cert.Spec.comb
  simp only [h0, h1, h2, h3, h4]

variable (V : (c : Dev nD) → (b : Ref sig .tc) → Buf (Elt Ideal) ((c : Thread nD τ).loc b)) (c : Dev nD)

/-- The whole output array of region 0 as one function of the arrays the region reads: entry `(p, q)` is the clamped update
    of row `p`. -/
def rowUpdate0 : S200000x128.Idx → EReal := fun i =>
  Cert.Spec.relu (Cert.Spec.comb (fun p k => (V c main_arg0 : S200000x128.Idx → EReal) (ix2 p k)) (fun p k => (V c main_v29 : S200000x128.Idx → EReal) (ix2 p k))
    (fun p => (V c main_v9 : S200000x1.Idx → EReal) (ix2 p (0 : Fin 1))) (fun k q => (V c main_arg8 : S128x128.Idx → EReal) (ix2 k q))
    (fun k q => (V c main_arg11 : S128x128.Idx → EReal) (ix2 k q)) (i 0) (i 1))

/-- The grid has 50 points. -/
theorem point_lt0 (t : Fin cfg0.N) : t.val < 50 := lt_of_lt_of_eq t.isLt N_0

/-- The windows' block indices, decided over the grid: the row windows (the three row arrays and the output) sit at block
    `t` of the rows and block 0 of the columns, the weight windows at block 0 of both axes. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the node rows' block at point `t` is row `4000·t + p` of the array. -/
theorem rows0_0 (t : Fin cfg0.N) (p : Fin 4000) (k : Fin 128) (r : Fin 200000) (hr : r.val = 4000 * t.val + p.val) :
    (iblk0 (F := Ideal) V c 0 t : S4000x128.Idx → EReal) (ix2 p k) = (V c main_arg0 : S200000x128.Idx → EReal) (ix2 r k) := by
  obtain ⟨e0, e1, -⟩ := block_index0 t
  show (V c main_arg0 : S200000x128.Idx → EReal) (((cfg0.win 0).blk t).view.emb (ix2 p k)) = _
  congr 1
  funext a; apply Fin.ext
  match a with
  | ⟨0, _⟩ => show win0_0.index t (0 : Fin 2) * 4000 + 1 * p.val = r.val; omega
  | ⟨1, _⟩ => show win0_0.index t (1 : Fin 2) * 128 + 1 * k.val = k.val; omega

/-- Row `p` of the summed messages' block at point `t` is row `4000·t + p` of the array. -/
theorem rows0_1 (t : Fin cfg0.N) (p : Fin 4000) (k : Fin 128) (r : Fin 200000) (hr : r.val = 4000 * t.val + p.val) :
    (iblk0 (F := Ideal) V c 1 t : S4000x128.Idx → EReal) (ix2 p k) = (V c main_v29 : S200000x128.Idx → EReal) (ix2 r k) := by
  obtain ⟨-, -, e0, e1, -⟩ := block_index0 t
  show (V c main_v29 : S200000x128.Idx → EReal) (((cfg0.win 1).blk t).view.emb (ix2 p k)) = _
  congr 1
  funext a; apply Fin.ext
  match a with
  | ⟨0, _⟩ => show win0_1.index t (0 : Fin 2) * 4000 + 1 * p.val = r.val; omega
  | ⟨1, _⟩ => show win0_1.index t (1 : Fin 2) * 128 + 1 * k.val = k.val; omega

/-- Entry `p` of the count column's block at point `t` is entry `4000·t + p` of the column. -/
theorem rows0_2 (t : Fin cfg0.N) (p : Fin 4000) (r : Fin 200000) (hr : r.val = 4000 * t.val + p.val) :
    (iblk0 (F := Ideal) V c 2 t : S4000x1.Idx → EReal) (ix2 p (0 : Fin 1)) = (V c main_v9 : S200000x1.Idx → EReal) (ix2 r (0 : Fin 1)) := by
  obtain ⟨-, -, -, -, e0, e1, -⟩ := block_index0 t
  show (V c main_v9 : S200000x1.Idx → EReal) (((cfg0.win 2).blk t).view.emb (ix2 p (0 : Fin 1))) = _
  congr 1
  funext a; apply Fin.ext
  match a with
  | ⟨0, _⟩ => show win0_2.index t (0 : Fin 2) * 4000 + 1 * p.val = r.val; omega
  | ⟨1, _⟩ => show win0_2.index t (1 : Fin 2) * 1 + 1 * (0 : Fin 1).val = (0 : Fin 1).val; omega

/-- The first weight matrix's block at every point is the whole matrix. -/
theorem rows0_3 (t : Fin cfg0.N) (k q : Fin 128) :
    (iblk0 (F := Ideal) V c 3 t : S128x128.Idx → EReal) (ix2 k q) = (V c main_arg8 : S128x128.Idx → EReal) (ix2 k q) := by
  obtain ⟨-, -, -, -, -, -, e0, e1, -⟩ := block_index0 t
  show (V c main_arg8 : S128x128.Idx → EReal) (((cfg0.win 3).blk t).view.emb (ix2 k q)) = _
  congr 1
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The second weight matrix's block at every point is the whole matrix. -/
theorem rows0_4 (t : Fin cfg0.N) (k q : Fin 128) :
    (iblk0 (F := Ideal) V c 4 t : S128x128.Idx → EReal) (ix2 k q) = (V c main_arg11 : S128x128.Idx → EReal) (ix2 k q) := by
  obtain ⟨-, -, -, -, -, -, -, -, e0, e1, -⟩ := block_index0 t
  show (V c main_arg11 : S128x128.Idx → EReal) (((cfg0.win 4).blk t).view.emb (ix2 k q)) = _
  congr 1
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- Entry `(p, q)` of the output's block at point `t` sits at row `4000·t + p`, column `q` of the output array. -/
theorem out_index0 (t : Fin cfg0.N) (p : Fin 4000) (q : Fin 128) (r : Fin 200000) (hr : r.val = 4000 * t.val + p.val) :
    (((cfg0.win 5).blk t).view.emb (ix2 p q) : S200000x128.Idx) = ix2 r q := by
  obtain ⟨-, -, -, -, -, -, -, -, -, -, e0, e1⟩ := block_index0 t
  funext a; apply Fin.ext
  match a with
  | ⟨0, _⟩ => show win0_5.index t (0 : Fin 2) * 4000 + 1 * p.val = r.val; omega
  | ⟨1, _⟩ => show win0_5.index t (1 : Fin 2) * 128 + 1 * q.val = q.val; omega

/-- What point `t` writes back is block `t` of the row update of the arrays as the region finds them. -/
theorem flushed0_eq (t : Fin cfg0.N) :
    (dat0 (F := Ideal) V c).flushed 5 t = ((cfg0.win 5).blk t).view.read (Elt Ideal) (rowUpdate0 V c) := by
  show (cfg0.win 5).cut (grid0.coords t) ((dat0 (F := Ideal) V c).after 5 t) = _
  rw [after0_5 V c t]
  unfold out0_5
  rw [View.canon_unit_zero zero_off0]
  simp only [View.ld_unit_zero (S := S4000x128) zero_off0, View.ld_unit_zero (S := S4000x1) zero_off0, View.ld_unit_zero (S := S128x128) zero_off0]
  funext j
  obtain ⟨p, q, rfl⟩ : ∃ (p : Fin 4000) (q : Fin 128), j = ix2 p q := ⟨j 0, j 1, eq_ix2 j⟩
  have ht : t.val < 50 := point_lt0 t
  have hp : p.val < 4000 := p.isLt
  let r : Fin 200000 := ⟨4000 * t.val + p.val, by omega⟩
  have hr : r.val = 4000 * t.val + p.val := rfl
  show k0_pay1 (F := Ideal) (iblk0 V c 0 t) (iblk0 V c 1 t) (iblk0 V c 2 t) (iblk0 V c 3 t) (iblk0 V c 4 t) (ix2 p q)
    = rowUpdate0 V c (((cfg0.win 5).blk t).view.emb (ix2 p q))
  refine (Cert.KernelIdeal.Pay.pay0 _ _ _ _ _ p q).trans ?_
  refine Eq.trans ?_ (congrArg (rowUpdate0 V c) (out_index0 t p q r hr)).symm
  show Cert.Spec.relu _ = Cert.Spec.relu _
  congr 1
  exact comb_row0 _ _ _ _ _ _ _ _ _ _ p r (fun k => rows0_0 V c t p k r hr) (fun k => rows0_1 V c t p k r hr) (rows0_2 V c t p r hr)
    (fun k q => rows0_3 V c t k q) (fun k q => rows0_4 V c t k q) q

/-- An index of the output array is in point `t`'s block iff each coordinate is in the block's range on its axis. -/
theorem mem_block0 (t : Fin cfg0.N) (i : S200000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v30).slice (win0_5.rect t)).set ↔ _
  rw [View.set_slice_whole, Rect.mem_set_unit]
  exact Iff.rfl

/-- The blocks tile the output: row `r` is in the block of point `r / 4000`. -/
theorem covered0 (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  let t : Fin cfg0.N := ⟨(i 0).val / 4000, lt_of_lt_of_eq (by omega : (i 0).val / 4000 < 50) N_0.symm⟩
  have htv : t.val = (i 0).val / 4000 := rfl
  obtain ⟨-, -, -, -, -, -, -, -, -, -, e0, e1⟩ := block_index0 t
  refine ⟨t, flush0_5 t, ?_⟩
  rw [mem_block0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The output array after region 0 is the row update of the arrays the region read. -/
theorem array0 : (dat0 (F := Ideal) V c).arrAt 5 cfg0.N = rowUpdate0 V c :=
  (dat0 (F := Ideal) V c).arrAt_eq_of_cover 5 (rowUpdate0 V c) (fun t _ => flushed0_eq V c t) (covered0)

/-- After region 0, whatever the buffers held when it was entered (`V`): entry `(p, q)` of the output array is the
    update of row `p` of the arrays the region read. -/
theorem final0 (V : (c : Dev nD) → (b : Ref sig .tc) → Buf (Elt Ideal) ((c : Thread nD τ).loc b)) (c : Dev nD) (p : Fin 200000) (q : Fin 128) :
    ((dat0 (F := Ideal) V c).arrAt 5 cfg0.N : S200000x128.Idx → EReal) (ix2 p q)
      = Cert.Spec.relu (Cert.Spec.comb (fun p k => (V c main_arg0 : S200000x128.Idx → EReal) (ix2 p k)) (fun p k => (V c main_v29 : S200000x128.Idx → EReal) (ix2 p k))
          (fun p => (V c main_v9 : S200000x1.Idx → EReal) (ix2 p (0 : Fin 1))) (fun k q => (V c main_arg8 : S128x128.Idx → EReal) (ix2 k q))
          (fun k q => (V c main_arg11 : S128x128.Idx → EReal) (ix2 k q)) p q) :=
  congrFun (array0 V c) (ix2 p q)

end Cert.KernelIdeal.Blocks

end
-- ==== Proof.Blocks1.lean ====
/-
  Region 1 of the kernel program, from blocks to the whole array.

  The region runs the combine body once per block of 4000 rows: point `t` of the grid reads rows `4000·t … 4000·t + 3999` of the
  node rows, of the summed messages and of the count column, and both weight matrices whole, and writes the same rows of
  the output. The blocks tile the output array, so every entry of it is the body's entry for its row.
-/
import proofs.«134598_j69518340653459_2_alg».proof.Proof.Gen.KernelIdeal.Frame
import proofs.«134598_j69518340653459_2_alg».proof.Proof.PayComb
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of a whole-block access, however spelt. -/
theorem zero_off1 : (![0, 0] : Fin 2 → Nat) = fun _ => 0 := funext fun a => by fin_cases a <;> rfl

/-- The update of one row depends on that row of the three row arrays and on the weight matrices only: if row `p` of the
    blocks is row `r` of the arrays and the weights agree, the two updates agree. -/
theorem comb_row1 {n m : ℕ} (x0 x1 : Fin n → Fin 128 → EReal) (x2 : Fin n → EReal) (x3 x4 : Fin 128 → Fin 128 → EReal)
    (a0 a1 : Fin m → Fin 128 → EReal) (a2 : Fin m → EReal) (a3 a4 : Fin 128 → Fin 128 → EReal) (p : Fin n) (r : Fin m)
    (h0 : ∀ k, x0 p k = a0 r k) (h1 : ∀ k, x1 p k = a1 r k) (h2 : x2 p = a2 r)
    (h3 : ∀ k q, x3 k q = a3 k q) (h4 : ∀ k q, x4 k q = a4 k q) (q : Fin 128) :
    Cert.Spec.comb x0 x1 x2 x3 x4 p q = Cert.Spec.comb a0 a1 a2 a3 a4 r q := by
  unfold Cert.Spec.comb
  simp only [h0, h1, h2, h3, h4]

variable (V : (c : Dev nD) → (b : Ref sig .tc) → Buf (Elt Ideal) ((c : Thread nD τ).loc b)) (c : Dev nD)

/-- The whole output array of region 1 as one function of the arrays the region reads: entry `(p, q)` is the clamped update
    of row `p`. -/
def rowUpdate1 : S100000x128.Idx → EReal := fun i =>
  Cert.Spec.relu (Cert.Spec.comb (fun p k => (V c main_arg1 : S100000x128.Idx → EReal) (ix2 p k)) (fun p k => (V c main_v19 : S100000x128.Idx → EReal) (ix2 p k))
    (fun p => (V c main_v4 : S100000x1.Idx → EReal) (ix2 p (0 : Fin 1))) (fun k q => (V c main_arg9 : S128x128.Idx → EReal) (ix2 k q))
    (fun k q => (V c main_arg10 : S128x128.Idx → EReal) (ix2 k q)) (i 0) (i 1))

/-- The grid has 25 points. -/
theorem point_lt1 (t : Fin cfg1.N) : t.val < 25 := lt_of_lt_of_eq t.isLt N_1

/-- The windows' block indices, decided over the grid: the row windows (the three row arrays and the output) sit at block
    `t` of the rows and block 0 of the columns, the weight windows at block 0 of both axes. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the node rows' block at point `t` is row `4000·t + p` of the array. -/
theorem rows1_0 (t : Fin cfg1.N) (p : Fin 4000) (k : Fin 128) (r : Fin 100000) (hr : r.val = 4000 * t.val + p.val) :
    (iblk1 (F := Ideal) V c 0 t : S4000x128.Idx → EReal) (ix2 p k) = (V c main_arg1 : S100000x128.Idx → EReal) (ix2 r k) := by
  obtain ⟨e0, e1, -⟩ := block_index1 t
  show (V c main_arg1 : S100000x128.Idx → EReal) (((cfg1.win 0).blk t).view.emb (ix2 p k)) = _
  congr 1
  funext a; apply Fin.ext
  match a with
  | ⟨0, _⟩ => show win1_0.index t (0 : Fin 2) * 4000 + 1 * p.val = r.val; omega
  | ⟨1, _⟩ => show win1_0.index t (1 : Fin 2) * 128 + 1 * k.val = k.val; omega

/-- Row `p` of the summed messages' block at point `t` is row `4000·t + p` of the array. -/
theorem rows1_1 (t : Fin cfg1.N) (p : Fin 4000) (k : Fin 128) (r : Fin 100000) (hr : r.val = 4000 * t.val + p.val) :
    (iblk1 (F := Ideal) V c 1 t : S4000x128.Idx → EReal) (ix2 p k) = (V c main_v19 : S100000x128.Idx → EReal) (ix2 r k) := by
  obtain ⟨-, -, e0, e1, -⟩ := block_index1 t
  show (V c main_v19 : S100000x128.Idx → EReal) (((cfg1.win 1).blk t).view.emb (ix2 p k)) = _
  congr 1
  funext a; apply Fin.ext
  match a with
  | ⟨0, _⟩ => show win1_1.index t (0 : Fin 2) * 4000 + 1 * p.val = r.val; omega
  | ⟨1, _⟩ => show win1_1.index t (1 : Fin 2) * 128 + 1 * k.val = k.val; omega

/-- Entry `p` of the count column's block at point `t` is entry `4000·t + p` of the column. -/
theorem rows1_2 (t : Fin cfg1.N) (p : Fin 4000) (r : Fin 100000) (hr : r.val = 4000 * t.val + p.val) :
    (iblk1 (F := Ideal) V c 2 t : S4000x1.Idx → EReal) (ix2 p (0 : Fin 1)) = (V c main_v4 : S100000x1.Idx → EReal) (ix2 r (0 : Fin 1)) := by
  obtain ⟨-, -, -, -, e0, e1, -⟩ := block_index1 t
  show (V c main_v4 : S100000x1.Idx → EReal) (((cfg1.win 2).blk t).view.emb (ix2 p (0 : Fin 1))) = _
  congr 1
  funext a; apply Fin.ext
  match a with
  | ⟨0, _⟩ => show win1_2.index t (0 : Fin 2) * 4000 + 1 * p.val = r.val; omega
  | ⟨1, _⟩ => show win1_2.index t (1 : Fin 2) * 1 + 1 * (0 : Fin 1).val = (0 : Fin 1).val; omega

/-- The first weight matrix's block at every point is the whole matrix. -/
theorem rows1_3 (t : Fin cfg1.N) (k q : Fin 128) :
    (iblk1 (F := Ideal) V c 3 t : S128x128.Idx → EReal) (ix2 k q) = (V c main_arg9 : S128x128.Idx → EReal) (ix2 k q) := by
  obtain ⟨-, -, -, -, -, -, e0, e1, -⟩ := block_index1 t
  show (V c main_arg9 : S128x128.Idx → EReal) (((cfg1.win 3).blk t).view.emb (ix2 k q)) = _
  congr 1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The second weight matrix's block at every point is the whole matrix. -/
theorem rows1_4 (t : Fin cfg1.N) (k q : Fin 128) :
    (iblk1 (F := Ideal) V c 4 t : S128x128.Idx → EReal) (ix2 k q) = (V c main_arg10 : S128x128.Idx → EReal) (ix2 k q) := by
  obtain ⟨-, -, -, -, -, -, -, -, e0, e1, -⟩ := block_index1 t
  show (V c main_arg10 : S128x128.Idx → EReal) (((cfg1.win 4).blk t).view.emb (ix2 k q)) = _
  congr 1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- Entry `(p, q)` of the output's block at point `t` sits at row `4000·t + p`, column `q` of the output array. -/
theorem out_index1 (t : Fin cfg1.N) (p : Fin 4000) (q : Fin 128) (r : Fin 100000) (hr : r.val = 4000 * t.val + p.val) :
    (((cfg1.win 5).blk t).view.emb (ix2 p q) : S100000x128.Idx) = ix2 r q := by
  obtain ⟨-, -, -, -, -, -, -, -, -, -, e0, e1⟩ := block_index1 t
  funext a; apply Fin.ext
  match a with
  | ⟨0, _⟩ => show win1_5.index t (0 : Fin 2) * 4000 + 1 * p.val = r.val; omega
  | ⟨1, _⟩ => show win1_5.index t (1 : Fin 2) * 128 + 1 * q.val = q.val; omega

/-- What point `t` writes back is block `t` of the row update of the arrays as the region finds them. -/
theorem flushed1_eq (t : Fin cfg1.N) :
    (dat1 (F := Ideal) V c).flushed 5 t = ((cfg1.win 5).blk t).view.read (Elt Ideal) (rowUpdate1 V c) := by
  show (cfg1.win 5).cut (grid1.coords t) ((dat1 (F := Ideal) V c).after 5 t) = _
  rw [after1_5 V c t]
  unfold out1_5
  rw [View.canon_unit_zero zero_off1]
  simp only [View.ld_unit_zero (S := S4000x128) zero_off1, View.ld_unit_zero (S := S4000x1) zero_off1, View.ld_unit_zero (S := S128x128) zero_off1]
  funext j
  obtain ⟨p, q, rfl⟩ : ∃ (p : Fin 4000) (q : Fin 128), j = ix2 p q := ⟨j 0, j 1, eq_ix2 j⟩
  have ht : t.val < 25 := point_lt1 t
  have hp : p.val < 4000 := p.isLt
  let r : Fin 100000 := ⟨4000 * t.val + p.val, by omega⟩
  have hr : r.val = 4000 * t.val + p.val := rfl
  show k1_pay1 (F := Ideal) (iblk1 V c 0 t) (iblk1 V c 1 t) (iblk1 V c 2 t) (iblk1 V c 3 t) (iblk1 V c 4 t) (ix2 p q)
    = rowUpdate1 V c (((cfg1.win 5).blk t).view.emb (ix2 p q))
  refine (Cert.KernelIdeal.Pay.pay1 _ _ _ _ _ p q).trans ?_
  refine Eq.trans ?_ (congrArg (rowUpdate1 V c) (out_index1 t p q r hr)).symm
  show Cert.Spec.relu _ = Cert.Spec.relu _
  congr 1
  exact comb_row1 _ _ _ _ _ _ _ _ _ _ p r (fun k => rows1_0 V c t p k r hr) (fun k => rows1_1 V c t p k r hr) (rows1_2 V c t p r hr)
    (fun k q => rows1_3 V c t k q) (fun k q => rows1_4 V c t k q) q

/-- An index of the output array is in point `t`'s block iff each coordinate is in the block's range on its axis. -/
theorem mem_block1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v31).slice (win1_5.rect t)).set ↔ _
  rw [View.set_slice_whole, Rect.mem_set_unit]
  exact Iff.rfl

/-- The blocks tile the output: row `r` is in the block of point `r / 4000`. -/
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 4000, lt_of_lt_of_eq (by omega : (i 0).val / 4000 < 25) N_1.symm⟩
  have htv : t.val = (i 0).val / 4000 := rfl
  obtain ⟨-, -, -, -, -, -, -, -, -, -, e0, e1⟩ := block_index1 t
  refine ⟨t, flush1_5 t, ?_⟩
  rw [mem_block1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The output array after region 1 is the row update of the arrays the region read. -/
theorem array1 : (dat1 (F := Ideal) V c).arrAt 5 cfg1.N = rowUpdate1 V c :=
  (dat1 (F := Ideal) V c).arrAt_eq_of_cover 5 (rowUpdate1 V c) (fun t _ => flushed1_eq V c t) (covered1)

/-- After region 1, whatever the buffers held when it was entered (`V`): entry `(p, q)` of the output array is the
    update of row `p` of the arrays the region read. -/
theorem final1 (V : (c : Dev nD) → (b : Ref sig .tc) → Buf (Elt Ideal) ((c : Thread nD τ).loc b)) (c : Dev nD) (p : Fin 100000) (q : Fin 128) :
    ((dat1 (F := Ideal) V c).arrAt 5 cfg1.N : S100000x128.Idx → EReal) (ix2 p q)
      = Cert.Spec.relu (Cert.Spec.comb (fun p k => (V c main_arg1 : S100000x128.Idx → EReal) (ix2 p k)) (fun p k => (V c main_v19 : S100000x128.Idx → EReal) (ix2 p k))
          (fun p => (V c main_v4 : S100000x1.Idx → EReal) (ix2 p (0 : Fin 1))) (fun k q => (V c main_arg9 : S128x128.Idx → EReal) (ix2 k q))
          (fun k q => (V c main_arg10 : S128x128.Idx → EReal) (ix2 k q)) p q) :=
  congrFun (array1 V c) (ix2 p q)

end Cert.KernelIdeal.Blocks

end
-- ==== Proof.Blocks2.lean ====
/-
  Region 2 of the kernel program, from blocks to the whole array.

  The region runs the combine body once per block of 4000 rows: point `t` of the grid reads rows `4000·t … 4000·t + 3999` of the
  node rows, of the summed messages and of the count column, and both weight matrices whole, and writes the same rows of
  the output. The blocks tile the output array, so every entry of it is the body's entry for its row.
-/
import proofs.«134598_j69518340653459_2_alg».proof.Proof.Gen.KernelIdeal.Frame
import proofs.«134598_j69518340653459_2_alg».proof.Proof.PayComb
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of a whole-block access, however spelt. -/
theorem zero_off2 : (![0, 0] : Fin 2 → Nat) = fun _ => 0 := funext fun a => by fin_cases a <;> rfl

/-- The update of one row depends on that row of the three row arrays and on the weight matrices only: if row `p` of the
    blocks is row `r` of the arrays and the weights agree, the two updates agree. -/
theorem comb_row2 {n m : ℕ} (x0 x1 : Fin n → Fin 128 → EReal) (x2 : Fin n → EReal) (x3 x4 : Fin 128 → Fin 128 → EReal)
    (a0 a1 : Fin m → Fin 128 → EReal) (a2 : Fin m → EReal) (a3 a4 : Fin 128 → Fin 128 → EReal) (p : Fin n) (r : Fin m)
    (h0 : ∀ k, x0 p k = a0 r k) (h1 : ∀ k, x1 p k = a1 r k) (h2 : x2 p = a2 r)
    (h3 : ∀ k q, x3 k q = a3 k q) (h4 : ∀ k q, x4 k q = a4 k q) (q : Fin 128) :
    Cert.Spec.comb x0 x1 x2 x3 x4 p q = Cert.Spec.comb a0 a1 a2 a3 a4 r q := by
  unfold Cert.Spec.comb
  simp only [h0, h1, h2, h3, h4]

variable (V : (c : Dev nD) → (b : Ref sig .tc) → Buf (Elt Ideal) ((c : Thread nD τ).loc b)) (c : Dev nD)

/-- The whole output array of region 2 as one function of the arrays the region reads: entry `(p, q)` is the update
    of row `p`. -/
def rowUpdate2 : S200000x128.Idx → EReal := fun i =>
  Cert.Spec.comb (fun p k => (V c main_v30 : S200000x128.Idx → EReal) (ix2 p k)) (fun p k => (V c main_v53 : S200000x128.Idx → EReal) (ix2 p k))
    (fun p => (V c main_v9 : S200000x1.Idx → EReal) (ix2 p (0 : Fin 1))) (fun k q => (V c main_arg12 : S128x128.Idx → EReal) (ix2 k q))
    (fun k q => (V c main_arg15 : S128x128.Idx → EReal) (ix2 k q)) (i 0) (i 1)

/-- The grid has 50 points. -/
theorem point_lt2 (t : Fin cfg2.N) : t.val < 50 := lt_of_lt_of_eq t.isLt N_2

/-- The windows' block indices, decided over the grid: the row windows (the three row arrays and the output) sit at block
    `t` of the rows and block 0 of the columns, the weight windows at block 0 of both axes. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the node rows' block at point `t` is row `4000·t + p` of the array. -/
theorem rows2_0 (t : Fin cfg2.N) (p : Fin 4000) (k : Fin 128) (r : Fin 200000) (hr : r.val = 4000 * t.val + p.val) :
    (iblk2 (F := Ideal) V c 0 t : S4000x128.Idx → EReal) (ix2 p k) = (V c main_v30 : S200000x128.Idx → EReal) (ix2 r k) := by
  obtain ⟨e0, e1, -⟩ := block_index2 t
  show (V c main_v30 : S200000x128.Idx → EReal) (((cfg2.win 0).blk t).view.emb (ix2 p k)) = _
  congr 1
  funext a; apply Fin.ext
  match a with
  | ⟨0, _⟩ => show win2_0.index t (0 : Fin 2) * 4000 + 1 * p.val = r.val; omega
  | ⟨1, _⟩ => show win2_0.index t (1 : Fin 2) * 128 + 1 * k.val = k.val; omega

/-- Row `p` of the summed messages' block at point `t` is row `4000·t + p` of the array. -/
theorem rows2_1 (t : Fin cfg2.N) (p : Fin 4000) (k : Fin 128) (r : Fin 200000) (hr : r.val = 4000 * t.val + p.val) :
    (iblk2 (F := Ideal) V c 1 t : S4000x128.Idx → EReal) (ix2 p k) = (V c main_v53 : S200000x128.Idx → EReal) (ix2 r k) := by
  obtain ⟨-, -, e0, e1, -⟩ := block_index2 t
  show (V c main_v53 : S200000x128.Idx → EReal) (((cfg2.win 1).blk t).view.emb (ix2 p k)) = _
  congr 1
  funext a; apply Fin.ext
  match a with
  | ⟨0, _⟩ => show win2_1.index t (0 : Fin 2) * 4000 + 1 * p.val = r.val; omega
  | ⟨1, _⟩ => show win2_1.index t (1 : Fin 2) * 128 + 1 * k.val = k.val; omega

/-- Entry `p` of the count column's block at point `t` is entry `4000·t + p` of the column. -/
theorem rows2_2 (t : Fin cfg2.N) (p : Fin 4000) (r : Fin 200000) (hr : r.val = 4000 * t.val + p.val) :
    (iblk2 (F := Ideal) V c 2 t : S4000x1.Idx → EReal) (ix2 p (0 : Fin 1)) = (V c main_v9 : S200000x1.Idx → EReal) (ix2 r (0 : Fin 1)) := by
  obtain ⟨-, -, -, -, e0, e1, -⟩ := block_index2 t
  show (V c main_v9 : S200000x1.Idx → EReal) (((cfg2.win 2).blk t).view.emb (ix2 p (0 : Fin 1))) = _
  congr 1
  funext a; apply Fin.ext
  match a with
  | ⟨0, _⟩ => show win2_2.index t (0 : Fin 2) * 4000 + 1 * p.val = r.val; omega
  | ⟨1, _⟩ => show win2_2.index t (1 : Fin 2) * 1 + 1 * (0 : Fin 1).val = (0 : Fin 1).val; omega

/-- The first weight matrix's block at every point is the whole matrix. -/
theorem rows2_3 (t : Fin cfg2.N) (k q : Fin 128) :
    (iblk2 (F := Ideal) V c 3 t : S128x128.Idx → EReal) (ix2 k q) = (V c main_arg12 : S128x128.Idx → EReal) (ix2 k q) := by
  obtain ⟨-, -, -, -, -, -, e0, e1, -⟩ := block_index2 t
  show (V c main_arg12 : S128x128.Idx → EReal) (((cfg2.win 3).blk t).view.emb (ix2 k q)) = _
  congr 1
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- The second weight matrix's block at every point is the whole matrix. -/
theorem rows2_4 (t : Fin cfg2.N) (k q : Fin 128) :
    (iblk2 (F := Ideal) V c 4 t : S128x128.Idx → EReal) (ix2 k q) = (V c main_arg15 : S128x128.Idx → EReal) (ix2 k q) := by
  obtain ⟨-, -, -, -, -, -, -, -, e0, e1, -⟩ := block_index2 t
  show (V c main_arg15 : S128x128.Idx → EReal) (((cfg2.win 4).blk t).view.emb (ix2 k q)) = _
  congr 1
  funext a; apply Fin.ext
  match a with
  | ⟨0, _⟩ => show win2_4.index t (0 : Fin 2) * 128 + 1 * k.val = k.val; omega
  | ⟨1, _⟩ => show win2_4.index t (1 : Fin 2) * 128 + 1 * q.val = q.val; omega

/-- Entry `(p, q)` of the output's block at point `t` sits at row `4000·t + p`, column `q` of the output array. -/
theorem out_index2 (t : Fin cfg2.N) (p : Fin 4000) (q : Fin 128) (r : Fin 200000) (hr : r.val = 4000 * t.val + p.val) :
    (((cfg2.win 5).blk t).view.emb (ix2 p q) : S200000x128.Idx) = ix2 r q := by
  obtain ⟨-, -, -, -, -, -, -, -, -, -, e0, e1⟩ := block_index2 t
  funext a; apply Fin.ext
  match a with
  | ⟨0, _⟩ => show win2_5.index t (0 : Fin 2) * 4000 + 1 * p.val = r.val; omega
  | ⟨1, _⟩ => show win2_5.index t (1 : Fin 2) * 128 + 1 * q.val = q.val; omega

/-- What point `t` writes back is block `t` of the row update of the arrays as the region finds them. -/
theorem flushed2_eq (t : Fin cfg2.N) :
    (dat2 (F := Ideal) V c).flushed 5 t = ((cfg2.win 5).blk t).view.read (Elt Ideal) (rowUpdate2 V c) := by
  show (cfg2.win 5).cut (grid2.coords t) ((dat2 (F := Ideal) V c).after 5 t) = _
  rw [after2_5 V c t]
  unfold out2_5
  rw [View.canon_unit_zero zero_off2]
  simp only [View.ld_unit_zero (S := S4000x128) zero_off2, View.ld_unit_zero (S := S4000x1) zero_off2, View.ld_unit_zero (S := S128x128) zero_off2]
  funext j
  obtain ⟨p, q, rfl⟩ : ∃ (p : Fin 4000) (q : Fin 128), j = ix2 p q := ⟨j 0, j 1, eq_ix2 j⟩
  have ht : t.val < 50 := point_lt2 t
  have hp : p.val < 4000 := p.isLt
  let r : Fin 200000 := ⟨4000 * t.val + p.val, by omega⟩
  have hr : r.val = 4000 * t.val + p.val := rfl
  show k2_pay1 (F := Ideal) (iblk2 V c 0 t) (iblk2 V c 1 t) (iblk2 V c 2 t) (iblk2 V c 3 t) (iblk2 V c 4 t) (ix2 p q)
    = rowUpdate2 V c (((cfg2.win 5).blk t).view.emb (ix2 p q))
  refine (Cert.KernelIdeal.Pay.pay2 _ _ _ _ _ p q).trans ?_
  refine Eq.trans ?_ (congrArg (rowUpdate2 V c) (out_index2 t p q r hr)).symm
  exact comb_row2 _ _ _ _ _ _ _ _ _ _ p r (fun k => rows2_0 V c t p k r hr) (fun k => rows2_1 V c t p k r hr) (rows2_2 V c t p r hr)
    (fun k q => rows2_3 V c t k q) (fun k q => rows2_4 V c t k q) q

/-- An index of the output array is in point `t`'s block iff each coordinate is in the block's range on its axis. -/
theorem mem_block2 (t : Fin cfg2.N) (i : S200000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v54).slice (win2_5.rect t)).set ↔ _
  rw [View.set_slice_whole, Rect.mem_set_unit]
  exact Iff.rfl

/-- The blocks tile the output: row `r` is in the block of point `r / 4000`. -/
theorem covered2 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  let t : Fin cfg2.N := ⟨(i 0).val / 4000, lt_of_lt_of_eq (by omega : (i 0).val / 4000 < 50) N_2.symm⟩
  have htv : t.val = (i 0).val / 4000 := rfl
  obtain ⟨-, -, -, -, -, -, -, -, -, -, e0, e1⟩ := block_index2 t
  refine ⟨t, flush2_5 t, ?_⟩
  rw [mem_block2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- The output array after region 2 is the row update of the arrays the region read. -/
theorem array2 : (dat2 (F := Ideal) V c).arrAt 5 cfg2.N = rowUpdate2 V c :=
  (dat2 (F := Ideal) V c).arrAt_eq_of_cover 5 (rowUpdate2 V c) (fun t _ => flushed2_eq V c t) (covered2)

/-- After region 2, whatever the buffers held when it was entered (`V`): entry `(p, q)` of the output array is the
    update of row `p` of the arrays the region read. -/
theorem final2 (V : (c : Dev nD) → (b : Ref sig .tc) → Buf (Elt Ideal) ((c : Thread nD τ).loc b)) (c : Dev nD) (p : Fin 200000) (q : Fin 128) :
    ((dat2 (F := Ideal) V c).arrAt 5 cfg2.N : S200000x128.Idx → EReal) (ix2 p q)
      = Cert.Spec.comb (fun p k => (V c main_v30 : S200000x128.Idx → EReal) (ix2 p k)) (fun p k => (V c main_v53 : S200000x128.Idx → EReal) (ix2 p k))
          (fun p => (V c main_v9 : S200000x1.Idx → EReal) (ix2 p (0 : Fin 1))) (fun k q => (V c main_arg12 : S128x128.Idx → EReal) (ix2 k q))
          (fun k q => (V c main_arg15 : S128x128.Idx → EReal) (ix2 k q)) p q :=
  congrFun (array2 V c) (ix2 p q)

end Cert.KernelIdeal.Blocks

end
-- ==== Proof.Blocks3.lean ====
/-
  Region 3 of the kernel program, from blocks to the whole array.

  The region runs the combine body once per block of 4000 rows: point `t` of the grid reads rows `4000·t … 4000·t + 3999` of the
  node rows, of the summed messages and of the count column, and both weight matrices whole, and writes the same rows of
  the output. The blocks tile the output array, so every entry of it is the body's entry for its row.
-/
import proofs.«134598_j69518340653459_2_alg».proof.Proof.Gen.KernelIdeal.Frame
import proofs.«134598_j69518340653459_2_alg».proof.Proof.PayComb
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of a whole-block access, however spelt. -/
theorem zero_off3 : (![0, 0] : Fin 2 → Nat) = fun _ => 0 := funext fun a => by fin_cases a <;> rfl

/-- The update of one row depends on that row of the three row arrays and on the weight matrices only: if row `p` of the
    blocks is row `r` of the arrays and the weights agree, the two updates agree. -/
theorem comb_row3 {n m : ℕ} (x0 x1 : Fin n → Fin 128 → EReal) (x2 : Fin n → EReal) (x3 x4 : Fin 128 → Fin 128 → EReal)
    (a0 a1 : Fin m → Fin 128 → EReal) (a2 : Fin m → EReal) (a3 a4 : Fin 128 → Fin 128 → EReal) (p : Fin n) (r : Fin m)
    (h0 : ∀ k, x0 p k = a0 r k) (h1 : ∀ k, x1 p k = a1 r k) (h2 : x2 p = a2 r)
    (h3 : ∀ k q, x3 k q = a3 k q) (h4 : ∀ k q, x4 k q = a4 k q) (q : Fin 128) :
    Cert.Spec.comb x0 x1 x2 x3 x4 p q = Cert.Spec.comb a0 a1 a2 a3 a4 r q := by
  unfold Cert.Spec.comb
  simp only [h0, h1, h2, h3, h4]

variable (V : (c : Dev nD) → (b : Ref sig .tc) → Buf (Elt Ideal) ((c : Thread nD τ).loc b)) (c : Dev nD)

/-- The whole output array of region 3 as one function of the arrays the region reads: entry `(p, q)` is the update
    of row `p`. -/
def rowUpdate3 : S100000x128.Idx → EReal := fun i =>
  Cert.Spec.comb (fun p k => (V c main_v31 : S100000x128.Idx → EReal) (ix2 p k)) (fun p k => (V c main_v42 : S100000x128.Idx → EReal) (ix2 p k))
    (fun p => (V c main_v4 : S100000x1.Idx → EReal) (ix2 p (0 : Fin 1))) (fun k q => (V c main_arg13 : S128x128.Idx → EReal) (ix2 k q))
    (fun k q => (V c main_arg14 : S128x128.Idx → EReal) (ix2 k q)) (i 0) (i 1)

/-- The grid has 25 points. -/
theorem point_lt3 (t : Fin cfg3.N) : t.val < 25 := lt_of_lt_of_eq t.isLt N_3

/-- The windows' block indices, decided over the grid: the row windows (the three row arrays and the output) sit at block
    `t` of the rows and block 0 of the columns, the weight windows at block 0 of both axes. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the node rows' block at point `t` is row `4000·t + p` of the array. -/
theorem rows3_0 (t : Fin cfg3.N) (p : Fin 4000) (k : Fin 128) (r : Fin 100000) (hr : r.val = 4000 * t.val + p.val) :
    (iblk3 (F := Ideal) V c 0 t : S4000x128.Idx → EReal) (ix2 p k) = (V c main_v31 : S100000x128.Idx → EReal) (ix2 r k) := by
  obtain ⟨e0, e1, -⟩ := block_index3 t
  show (V c main_v31 : S100000x128.Idx → EReal) (((cfg3.win 0).blk t).view.emb (ix2 p k)) = _
  congr 1
  funext a; apply Fin.ext
  match a with
  | ⟨0, _⟩ => show win3_0.index t (0 : Fin 2) * 4000 + 1 * p.val = r.val; omega
  | ⟨1, _⟩ => show win3_0.index t (1 : Fin 2) * 128 + 1 * k.val = k.val; omega

/-- Row `p` of the summed messages' block at point `t` is row `4000·t + p` of the array. -/
theorem rows3_1 (t : Fin cfg3.N) (p : Fin 4000) (k : Fin 128) (r : Fin 100000) (hr : r.val = 4000 * t.val + p.val) :
    (iblk3 (F := Ideal) V c 1 t : S4000x128.Idx → EReal) (ix2 p k) = (V c main_v42 : S100000x128.Idx → EReal) (ix2 r k) := by
  obtain ⟨-, -, e0, e1, -⟩ := block_index3 t
  show (V c main_v42 : S100000x128.Idx → EReal) (((cfg3.win 1).blk t).view.emb (ix2 p k)) = _
  congr 1
  funext a; apply Fin.ext
  match a with
  | ⟨0, _⟩ => show win3_1.index t (0 : Fin 2) * 4000 + 1 * p.val = r.val; omega
  | ⟨1, _⟩ => show win3_1.index t (1 : Fin 2) * 128 + 1 * k.val = k.val; omega

/-- Entry `p` of the count column's block at point `t` is entry `4000·t + p` of the column. -/
theorem rows3_2 (t : Fin cfg3.N) (p : Fin 4000) (r : Fin 100000) (hr : r.val = 4000 * t.val + p.val) :
    (iblk3 (F := Ideal) V c 2 t : S4000x1.Idx → EReal) (ix2 p (0 : Fin 1)) = (V c main_v4 : S100000x1.Idx → EReal) (ix2 r (0 : Fin 1)) := by
  obtain ⟨-, -, -, -, e0, e1, -⟩ := block_index3 t
  show (V c main_v4 : S100000x1.Idx → EReal) (((cfg3.win 2).blk t).view.emb (ix2 p (0 : Fin 1))) = _
  congr 1
  funext a; apply Fin.ext
  match a with
  | ⟨0, _⟩ => show win3_2.index t (0 : Fin 2) * 4000 + 1 * p.val = r.val; omega
  | ⟨1, _⟩ => show win3_2.index t (1 : Fin 2) * 1 + 1 * (0 : Fin 1).val = (0 : Fin 1).val; omega

/-- The first weight matrix's block at every point is the whole matrix. -/
theorem rows3_3 (t : Fin cfg3.N) (k q : Fin 128) :
    (iblk3 (F := Ideal) V c 3 t : S128x128.Idx → EReal) (ix2 k q) = (V c main_arg13 : S128x128.Idx → EReal) (ix2 k q) := by
  obtain ⟨-, -, -, -, -, -, e0, e1, -⟩ := block_index3 t
  show (V c main_arg13 : S128x128.Idx → EReal) (((cfg3.win 3).blk t).view.emb (ix2 k q)) = _
  congr 1
  funext a; apply Fin.ext
  match a with
  | ⟨0, _⟩ => show win3_3.index t (0 : Fin 2) * 128 + 1 * k.val = k.val; omega
  | ⟨1, _⟩ => show win3_3.index t (1 : Fin 2) * 128 + 1 * q.val = q.val; omega

/-- The second weight matrix's block at every point is the whole matrix. -/
theorem rows3_4 (t : Fin cfg3.N) (k q : Fin 128) :
    (iblk3 (F := Ideal) V c 4 t : S128x128.Idx → EReal) (ix2 k q) = (V c main_arg14 : S128x128.Idx → EReal) (ix2 k q) := by
  obtain ⟨-, -, -, -, -, -, -, -, e0, e1, -⟩ := block_index3 t
  show (V c main_arg14 : S128x128.Idx → EReal) (((cfg3.win 4).blk t).view.emb (ix2 k q)) = _
  congr 1
  funext a; apply Fin.ext
  match a with
  | ⟨0, _⟩ => show win3_4.index t (0 : Fin 2) * 128 + 1 * k.val = k.val; omega
  | ⟨1, _⟩ => show win3_4.index t (1 : Fin 2) * 128 + 1 * q.val = q.val; omega

/-- Entry `(p, q)` of the output's block at point `t` sits at row `4000·t + p`, column `q` of the output array. -/
theorem out_index3 (t : Fin cfg3.N) (p : Fin 4000) (q : Fin 128) (r : Fin 100000) (hr : r.val = 4000 * t.val + p.val) :
    (((cfg3.win 5).blk t).view.emb (ix2 p q) : S100000x128.Idx) = ix2 r q := by
  obtain ⟨-, -, -, -, -, -, -, -, -, -, e0, e1⟩ := block_index3 t
  funext a; apply Fin.ext
  match a with
  | ⟨0, _⟩ => show win3_5.index t (0 : Fin 2) * 4000 + 1 * p.val = r.val; omega
  | ⟨1, _⟩ => show win3_5.index t (1 : Fin 2) * 128 + 1 * q.val = q.val; omega

/-- What point `t` writes back is block `t` of the row update of the arrays as the region finds them. -/
theorem flushed3_eq (t : Fin cfg3.N) :
    (dat3 (F := Ideal) V c).flushed 5 t = ((cfg3.win 5).blk t).view.read (Elt Ideal) (rowUpdate3 V c) := by
  show (cfg3.win 5).cut (grid3.coords t) ((dat3 (F := Ideal) V c).after 5 t) = _
  rw [after3_5 V c t]
  unfold out3_5
  rw [View.canon_unit_zero zero_off3]
  simp only [View.ld_unit_zero (S := S4000x128) zero_off3, View.ld_unit_zero (S := S4000x1) zero_off3, View.ld_unit_zero (S := S128x128) zero_off3]
  funext j
  obtain ⟨p, q, rfl⟩ : ∃ (p : Fin 4000) (q : Fin 128), j = ix2 p q := ⟨j 0, j 1, eq_ix2 j⟩
  have ht : t.val < 25 := point_lt3 t
  have hp : p.val < 4000 := p.isLt
  let r : Fin 100000 := ⟨4000 * t.val + p.val, by omega⟩
  have hr : r.val = 4000 * t.val + p.val := rfl
  show k3_pay1 (F := Ideal) (iblk3 V c 0 t) (iblk3 V c 1 t) (iblk3 V c 2 t) (iblk3 V c 3 t) (iblk3 V c 4 t) (ix2 p q)
    = rowUpdate3 V c (((cfg3.win 5).blk t).view.emb (ix2 p q))
  refine (Cert.KernelIdeal.Pay.pay3 _ _ _ _ _ p q).trans ?_
  refine Eq.trans ?_ (congrArg (rowUpdate3 V c) (out_index3 t p q r hr)).symm
  exact comb_row3 _ _ _ _ _ _ _ _ _ _ p r (fun k => rows3_0 V c t p k r hr) (fun k => rows3_1 V c t p k r hr) (rows3_2 V c t p r hr)
    (fun k q => rows3_3 V c t k q) (fun k q => rows3_4 V c t k q) q

/-- An index of the output array is in point `t`'s block iff each coordinate is in the block's range on its axis. -/
theorem mem_block3 (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v55).slice (win3_5.rect t)).set ↔ _
  rw [View.set_slice_whole, Rect.mem_set_unit]
  exact Iff.rfl

/-- The blocks tile the output: row `r` is in the block of point `r / 4000`. -/
theorem covered3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  let t : Fin cfg3.N := ⟨(i 0).val / 4000, lt_of_lt_of_eq (by omega : (i 0).val / 4000 < 25) N_3.symm⟩
  have htv : t.val = (i 0).val / 4000 := rfl
  obtain ⟨-, -, -, -, -, -, -, -, -, -, e0, e1⟩ := block_index3 t
  refine ⟨t, flush3_5 t, ?_⟩
  rw [mem_block3]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- The output array after region 3 is the row update of the arrays the region read. -/
theorem array3 : (dat3 (F := Ideal) V c).arrAt 5 cfg3.N = rowUpdate3 V c :=
  (dat3 (F := Ideal) V c).arrAt_eq_of_cover 5 (rowUpdate3 V c) (fun t _ => flushed3_eq V c t) (covered3)

/-- After region 3, whatever the buffers held when it was entered (`V`): entry `(p, q)` of the output array is the
    update of row `p` of the arrays the region read. -/
theorem final3 (V : (c : Dev nD) → (b : Ref sig .tc) → Buf (Elt Ideal) ((c : Thread nD τ).loc b)) (c : Dev nD) (p : Fin 100000) (q : Fin 128) :
    ((dat3 (F := Ideal) V c).arrAt 5 cfg3.N : S100000x128.Idx → EReal) (ix2 p q)
      = Cert.Spec.comb (fun p k => (V c main_v31 : S100000x128.Idx → EReal) (ix2 p k)) (fun p k => (V c main_v42 : S100000x128.Idx → EReal) (ix2 p k))
          (fun p => (V c main_v4 : S100000x1.Idx → EReal) (ix2 p (0 : Fin 1))) (fun k q => (V c main_arg13 : S128x128.Idx → EReal) (ix2 k q))
          (fun k q => (V c main_arg14 : S128x128.Idx → EReal) (ix2 k q)) p q :=
  congrFun (array3 V c) (ix2 p q)

end Cert.KernelIdeal.Blocks

end
-- ==== Proof.Blocks4.lean ====
/-
  Region 4 of the kernel program, from blocks to the whole array.

  The region runs the score body once per block of 4000 labelled pairs: point `t` reads rows `4000·t … 4000·t + 3999` of the two
  gathered arrays and writes the same rows of the one-column output. The blocks tile the output, so every entry of it is
  the inner product of its row of the two arrays.
-/
import proofs.«134598_j69518340653459_2_alg».proof.Proof.Gen.KernelIdeal.Frame
import proofs.«134598_j69518340653459_2_alg».proof.Proof.PayComb
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of an access to a whole block, spelt as a constant function. -/
theorem hz4 : (![0, 0] : Fin 2 → Nat) = fun _ => 0 := funext fun a => by fin_cases a <;> rfl

/-- The output column as ONE function of the two arrays the region reads: the entry in row `r` is the inner product of
    row `r` of the two arrays. -/
def G4 (zu zi : S500000x128.Idx → EReal) : S500000x1.Idx → EReal :=
  fun i => Cert.Spec.score (fun r k => zu (ix2 r k)) (fun r k => zi (ix2 r k)) ⟨(i 0).val, idx2_lt0 i⟩

/-- The three windows' block indices, decided over the 125 points: at point `t` each window is at block row `t`,
    block column `0`. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What the body leaves in the output block, at row `p`: its one store covers the block and both loads read whole
    blocks, so it is the body's arithmetic, the inner product of row `p` of the two input blocks. -/
theorem out4_apply4 (x0 x1 : Vec Ideal S4000x128 .bf16) (p : Fin 4000) :
    out4_2 (F := Ideal) x0 x1 (ix2 p (0 : Fin 1))
      = Cert.Spec.score (fun p k => x0 (ix2 p k)) (fun p k => x1 (ix2 p k)) p := by
  unfold out4_2
  rw [View.canon_unit_zero hz4]
  simp only [View.ld_unit_zero (S := S4000x128) hz4]
  exact Cert.KernelIdeal.Pay.pay4 x0 x1 p

/-- The same at any index of the one-column block: its column coordinate can only be `0`. -/
theorem out4_eq4 (x0 x1 : Vec Ideal S4000x128 .bf16) (y : S4000x1.Idx) :
    out4_2 (F := Ideal) x0 x1 y
      = Cert.Spec.score (fun p k => x0 (ix2 p k)) (fun p k => x1 (ix2 p k)) ⟨(y 0).val, idx2_lt0 y⟩ := by
  obtain ⟨p, q, rfl⟩ : ∃ (p : Fin 4000) (q : Fin 1), y = ix2 p q := ⟨y 0, y 1, eq_ix2 y⟩
  obtain rfl : q = 0 := Subsingleton.elim _ _
  exact out4_apply4 x0 x1 p

/-- The first input block at point `t` is rows `4000·t … 4000·t + 3999` of the first array: its entry `x` is the array's
    entry `i` whenever `i` is `x` moved down by `4000·t` rows. -/
theorem iblk4_0_apply4 (V : (c : Dev nD) → (b : Ref sig .tc) → Buf (Elt Ideal) ((c : Thread nD τ).loc b)) (c : Dev nD)
    (t : Fin cfg4.N) (x : S4000x128.Idx) (i : S500000x128.Idx)
    (h0 : (i 0).val = 4000 * t.val + (x 0).val) (h1 : (i 1).val = (x 1).val) :
    (iblk4 (F := Ideal) V c 0 t : Vec Ideal S4000x128 .bf16) x = (V c main_v62 : S500000x128.Idx → EReal) i := by
  obtain ⟨e0, e1, -, -, -, -⟩ := idx_facts4 t
  unfold iblk4
  rw [View.read_apply]
  show V c main_v62 _ = V c main_v62 _
  congr 1
  funext a
  apply Fin.ext
  match a with
  | ⟨0, _⟩ => show win4_0.index t (0 : Fin 2) * 4000 + 1 * (x 0).val = (i 0).val; rw [e0, h0]; omega
  | ⟨1, _⟩ => show win4_0.index t (1 : Fin 2) * 128 + 1 * (x 1).val = (i 1).val; rw [e1, h1]; omega

/-- The second input block at point `t` is the same rows of the second array. -/
theorem iblk4_1_apply4 (V : (c : Dev nD) → (b : Ref sig .tc) → Buf (Elt Ideal) ((c : Thread nD τ).loc b)) (c : Dev nD)
    (t : Fin cfg4.N) (x : S4000x128.Idx) (i : S500000x128.Idx)
    (h0 : (i 0).val = 4000 * t.val + (x 0).val) (h1 : (i 1).val = (x 1).val) :
    (iblk4 (F := Ideal) V c 1 t : Vec Ideal S4000x128 .bf16) x = (V c main_v69 : S500000x128.Idx → EReal) i := by
  obtain ⟨-, -, e0, e1, -, -⟩ := idx_facts4 t
  unfold iblk4
  rw [View.read_apply]
  show V c main_v69 _ = V c main_v69 _
  congr 1
  funext a
  apply Fin.ext
  match a with
  | ⟨0, _⟩ => show win4_1.index t (0 : Fin 2) * 4000 + 1 * (x 0).val = (i 0).val; rw [e0, h0]; omega
  | ⟨1, _⟩ => show win4_1.index t (1 : Fin 2) * 128 + 1 * (x 1).val = (i 1).val; rw [e1, h1]; omega

/-- What point `t` writes back is block `t` of `G4` of the two arrays as the region finds them: row `p` of the block is
    row `4000·t + p` of the column, and the two input blocks hold exactly that row of the two arrays. -/
theorem flushed_eq4 (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (G4 (V c main_v62) (V c main_v69)) := by
  show (cfg4.win 2).cut (grid4.coords t) ((dat4 V c).after 2 t) = _
  rw [after4_2 V c t]
  obtain ⟨-, -, -, -, e0, e1⟩ := idx_facts4 t
  funext j
  refine (out4_eq4 (iblk4 V c 0 t) (iblk4 V c 1 t) j).trans ?_
  show _ = G4 (V c main_v62) (V c main_v69) (((cfg4.win 2).blk t).view.emb j)
  unfold G4 Cert.Spec.score
  refine Finset.sum_congr rfl fun k _ => ?_
  have hj : (j 0).val < 4000 := (j 0).isLt
  have h0 : ((((cfg4.win 2).blk t).view.emb j) 0).val = 4000 * t.val + (j 0).val := by
    show win4_2.index t (0 : Fin 2) * 4000 + 1 * (j 0).val = _
    rw [e0]; omega
  exact congrArg₂ (· * ·)
    (iblk4_0_apply4 V c t (ix2 ⟨(j 0).val, hj⟩ k) (ix2 ⟨((((cfg4.win 2).blk t).view.emb j) 0).val, idx2_lt0 _⟩ k) h0 rfl)
    (iblk4_1_apply4 V c t (ix2 ⟨(j 0).val, hj⟩ k) (ix2 ⟨((((cfg4.win 2).blk t).view.emb j) 0).val, idx2_lt0 _⟩ k) h0 rfl)

/-- An index of the output column is in point `t`'s block iff each coordinate is in the block's range on its axis. -/
theorem mem_blk4 (t : Fin cfg4.N) (i : S500000x1.Idx) :
    i ∈ ((cfg4.win 2).blk t).view.set
      ↔ ∀ a : Fin 2, win4_2.index t a * S4000x1.size a ≤ (i a).val
          ∧ (i a).val < win4_2.index t a * S4000x1.size a + S4000x1.size a := by
  show i ∈ ((View.whole main_v70).slice (win4_2.rect t)).set ↔ _
  rw [View.set_slice_whole, Rect.mem_set_unit]
  exact Iff.rfl

/-- The blocks tile the column: row `r` is in the block of point `r / 4000`, and every point writes its block back. -/
theorem cover4 (i : S500000x1.Idx) :
    ∃ t : Fin cfg4.N, (cfg4.win 2).flush t = true ∧ i ∈ ((cfg4.win 2).blk t).view.set := by
  have hi0 : (i 0).val < 500000 := (i 0).isLt
  have hi1 : (i 1).val < 1 := (i 1).isLt
  have hN : cfg4.N = 125 := N_4
  obtain ⟨t, ht⟩ : ∃ t : Fin cfg4.N, t.val = (i 0).val / 4000 := ⟨⟨(i 0).val / 4000, by rw [hN]; omega⟩, rfl⟩
  obtain ⟨-, -, -, -, e0, e1⟩ := idx_facts4 t
  refine ⟨t, flush4_2 t, ?_⟩
  rw [mem_blk4]
  intro a
  match a with
  | ⟨0, _⟩ =>
    show win4_2.index t (0 : Fin 2) * 4000 ≤ (i 0).val ∧ (i 0).val < win4_2.index t (0 : Fin 2) * 4000 + 4000
    rw [e0, ht]; omega
  | ⟨1, _⟩ =>
    show win4_2.index t (1 : Fin 2) * 1 ≤ (i 1).val ∧ (i 1).val < win4_2.index t (1 : Fin 2) * 1 + 1
    rw [e1]; omega

/-- After region 4, whatever the buffers held when it was entered (`V`): entry `(r, 0)` of the output column is the inner
    product of row `r` of the two arrays the region read. -/
theorem final4 (V : (c : Dev nD) → (b : Ref sig .tc) → Buf (Elt Ideal) ((c : Thread nD τ).loc b)) (c : Dev nD) (r : Fin 500000) :
    ((dat4 (F := Ideal) V c).arrAt 2 cfg4.N : S500000x1.Idx → EReal) (ix2 r (0 : Fin 1))
      = Cert.Spec.score (fun r k => (V c main_v62 : S500000x128.Idx → EReal) (ix2 r k)) (fun r k => (V c main_v69 : S500000x128.Idx → EReal) (ix2 r k)) r := by
  have h := (dat4 (F := Ideal) V c).arrAt_eq_of_cover 2 (G4 (V c main_v62) (V c main_v69))
    (fun t _ => flushed_eq4 V c t) cover4
  exact congrFun h (ix2 r (0 : Fin 1))

end Cert.KernelIdeal.Blocks

end
-- ==== Proof.RefRead.lean ====
/-
  The reference's stages, read at one entry, on the extended reals.

  Each layer's update of a node type is, in the reference, a host dot_general of the node's own rows plus a host
  dot_general of the mean aggregation — the segment sum divided by the broadcast edge count floored at one —, clamped at
  zero after the first layer; the score is the host sum over the feature axis of the product of two gathered rows. Read
  at an entry these are `Cert.Spec.comb`, `Cert.Spec.relu` and `Cert.Spec.score` of the stages they consume; the gathers
  and segment sums stay closed.
-/
import proofs.«134598_j69518340653459_2_alg».proof.Proof.Gen.ReferenceIdeal.Read
import proofs.«134598_j69518340653459_2_alg».proof.Proof.Spec
import Idealize.ShloMosaic.PureOps.Ideal.Laws
import Idealize.ShloMosaic.Lib.ValueIdx
import Idealize.ShloMosaic.Lib.Pipeline.Value

noncomputable section

namespace Cert.ReferenceIdeal.RefRead

open Idealize.ShloMosaic Idealize.ShloMosaic.ValueIdx Cert.ReferenceIdeal Cert.ReferenceIdeal.Read

/-! ## Index equations and the divisor

Every stage below is read at an entry `(p, q)`. A contraction over the feature axis reads its left operand at `(p, k)`
and its right operand at `(k, q)`; the divisor of the mean is the edge count of row `p`, floored at one, whatever the
column. -/

/-! ### Layer 1, users -/

/-- The contraction of the node's own rows reads row `p` of the left operand at column `k`. -/
theorem lidx38 (p : Fin 200000) (q k : Fin 128) : lidx_main_v38 (ix2 p q) k = ix2 p k :=
  funext fun a => Fin.ext (by match a with | ⟨0, _⟩ => rfl | ⟨1, _⟩ => rfl)
/-- … and row `k` of the weight matrix at column `q`. -/
theorem ridx38 (p : Fin 200000) (q k : Fin 128) : ridx_main_v38 (ix2 p q) k = ix2 k q :=
  funext fun a => Fin.ext (by match a with | ⟨0, _⟩ => rfl | ⟨1, _⟩ => rfl)
/-- The contraction of the mean aggregation reads the same entries of its two operands. -/
theorem lidx39 (p : Fin 200000) (q k : Fin 128) : lidx_main_v39 (ix2 p q) k = ix2 p k :=
  funext fun a => Fin.ext (by match a with | ⟨0, _⟩ => rfl | ⟨1, _⟩ => rfl)
theorem ridx39 (p : Fin 200000) (q k : Fin 128) : ridx_main_v39 (ix2 p q) k = ix2 k q :=
  funext fun a => Fin.ext (by match a with | ⟨0, _⟩ => rfl | ⟨1, _⟩ => rfl)
/-- The two broadcasts of the floored count, `[n] → [n,1] → [n,128]`, read entry `(p, k)` at `p`. -/
theorem idx35_36 (p : Fin 200000) (k : Fin 128) : idx_main_v35 (idx_main_v36 (ix2 p k)) = ix1 p :=
  funext fun a => Fin.ext (by match a with | ⟨0, _⟩ => rfl)
/-- The divisor at entry `(p, k)`: the number of edges ending at `p`, floored at one. -/
theorem den36 (x : (⟨S2000000, .i32⟩ : BufTy).Contents (Elt Ideal)) (p : Fin 200000) (k : Fin 128) :
    val_main_v36 (F := Ideal) x (ix2 p k)
      = max (val_main_v32 (F := Ideal) x (ix1 p)) (Ideal.ofBits .f32 0x3F800000#32) := by
  rw [val_main_v36_apply, val_main_v35_apply, idx35_36, val_main_v34_apply, val_main_v33_apply,
    val_main_cst_9_apply, Ideal.maximumf_def, Ideal.ofBits_def]

/-! ### Layer 1, items -/

/-- The contraction of the node's own rows reads row `p` of the left operand at column `k`. -/
theorem lidx41 (p : Fin 100000) (q k : Fin 128) : lidx_main_v41 (ix2 p q) k = ix2 p k :=
  funext fun a => Fin.ext (by match a with | ⟨0, _⟩ => rfl | ⟨1, _⟩ => rfl)
/-- … and row `k` of the weight matrix at column `q`. -/
theorem ridx41 (p : Fin 100000) (q k : Fin 128) : ridx_main_v41 (ix2 p q) k = ix2 k q :=
  funext fun a => Fin.ext (by match a with | ⟨0, _⟩ => rfl | ⟨1, _⟩ => rfl)
/-- The contraction of the mean aggregation reads the same entries of its two operands. -/
theorem lidx42 (p : Fin 100000) (q k : Fin 128) : lidx_main_v42 (ix2 p q) k = ix2 p k :=
  funext fun a => Fin.ext (by match a with | ⟨0, _⟩ => rfl | ⟨1, _⟩ => rfl)
theorem ridx42 (p : Fin 100000) (q k : Fin 128) : ridx_main_v42 (ix2 p q) k = ix2 k q :=
  funext fun a => Fin.ext (by match a with | ⟨0, _⟩ => rfl | ⟨1, _⟩ => rfl)
/-- The two broadcasts of the floored count, `[n] → [n,1] → [n,128]`, read entry `(p, k)` at `p`. -/
theorem idx16_17 (p : Fin 100000) (k : Fin 128) : idx_main_v16 (idx_main_v17 (ix2 p k)) = ix1 p :=
  funext fun a => Fin.ext (by match a with | ⟨0, _⟩ => rfl)
/-- The divisor at entry `(p, k)`: the number of edges ending at `p`, floored at one. -/
theorem den17 (x : (⟨S2000000, .i32⟩ : BufTy).Contents (Elt Ideal)) (p : Fin 100000) (k : Fin 128) :
    val_main_v17 (F := Ideal) x (ix2 p k)
      = max (val_main_v13 (F := Ideal) x (ix1 p)) (Ideal.ofBits .f32 0x3F800000#32) := by
  rw [val_main_v17_apply, val_main_v16_apply, idx16_17, val_main_v15_apply, val_main_v14_apply,
    val_main_cst_3_apply, Ideal.maximumf_def, Ideal.ofBits_def]

/-! ### Layer 2, users -/

/-- The contraction of the node's own rows reads row `p` of the left operand at column `k`. -/
theorem lidx84 (p : Fin 200000) (q k : Fin 128) : lidx_main_v84 (ix2 p q) k = ix2 p k :=
  funext fun a => Fin.ext (by match a with | ⟨0, _⟩ => rfl | ⟨1, _⟩ => rfl)
/-- … and row `k` of the weight matrix at column `q`. -/
theorem ridx84 (p : Fin 200000) (q k : Fin 128) : ridx_main_v84 (ix2 p q) k = ix2 k q :=
  funext fun a => Fin.ext (by match a with | ⟨0, _⟩ => rfl | ⟨1, _⟩ => rfl)
/-- The contraction of the mean aggregation reads the same entries of its two operands. -/
theorem lidx85 (p : Fin 200000) (q k : Fin 128) : lidx_main_v85 (ix2 p q) k = ix2 p k :=
  funext fun a => Fin.ext (by match a with | ⟨0, _⟩ => rfl | ⟨1, _⟩ => rfl)
theorem ridx85 (p : Fin 200000) (q k : Fin 128) : ridx_main_v85 (ix2 p q) k = ix2 k q :=
  funext fun a => Fin.ext (by match a with | ⟨0, _⟩ => rfl | ⟨1, _⟩ => rfl)
/-- The two broadcasts of the floored count, `[n] → [n,1] → [n,128]`, read entry `(p, k)` at `p`. -/
theorem idx81_82 (p : Fin 200000) (k : Fin 128) : idx_main_v81 (idx_main_v82 (ix2 p k)) = ix1 p :=
  funext fun a => Fin.ext (by match a with | ⟨0, _⟩ => rfl)
/-- The divisor at entry `(p, k)`: the number of edges ending at `p`, floored at one. -/
theorem den82 (x : (⟨S2000000, .i32⟩ : BufTy).Contents (Elt Ideal)) (p : Fin 200000) (k : Fin 128) :
    val_main_v82 (F := Ideal) x (ix2 p k)
      = max (val_main_v78 (F := Ideal) x (ix1 p)) (Ideal.ofBits .f32 0x3F800000#32) := by
  rw [val_main_v82_apply, val_main_v81_apply, idx81_82, val_main_v80_apply, val_main_v79_apply,
    val_main_cst_21_apply, Ideal.maximumf_def, Ideal.ofBits_def]

/-! ### Layer 2, items -/

/-- The contraction of the node's own rows reads row `p` of the left operand at column `k`. -/
theorem lidx87 (p : Fin 100000) (q k : Fin 128) : lidx_main_v87 (ix2 p q) k = ix2 p k :=
  funext fun a => Fin.ext (by match a with | ⟨0, _⟩ => rfl | ⟨1, _⟩ => rfl)
/-- … and row `k` of the weight matrix at column `q`. -/
theorem ridx87 (p : Fin 100000) (q k : Fin 128) : ridx_main_v87 (ix2 p q) k = ix2 k q :=
  funext fun a => Fin.ext (by match a with | ⟨0, _⟩ => rfl | ⟨1, _⟩ => rfl)
/-- The contraction of the mean aggregation reads the same entries of its two operands. -/
theorem lidx88 (p : Fin 100000) (q k : Fin 128) : lidx_main_v88 (ix2 p q) k = ix2 p k :=
  funext fun a => Fin.ext (by match a with | ⟨0, _⟩ => rfl | ⟨1, _⟩ => rfl)
theorem ridx88 (p : Fin 100000) (q k : Fin 128) : ridx_main_v88 (ix2 p q) k = ix2 k q :=
  funext fun a => Fin.ext (by match a with | ⟨0, _⟩ => rfl | ⟨1, _⟩ => rfl)
/-- The two broadcasts of the floored count, `[n] → [n,1] → [n,128]`, read entry `(p, k)` at `p`. -/
theorem idx62_63 (p : Fin 100000) (k : Fin 128) : idx_main_v62 (idx_main_v63 (ix2 p k)) = ix1 p :=
  funext fun a => Fin.ext (by match a with | ⟨0, _⟩ => rfl)
/-- The divisor at entry `(p, k)`: the number of edges ending at `p`, floored at one. -/
theorem den63 (x : (⟨S2000000, .i32⟩ : BufTy).Contents (Elt Ideal)) (p : Fin 100000) (k : Fin 128) :
    val_main_v63 (F := Ideal) x (ix2 p k)
      = max (val_main_v59 (F := Ideal) x (ix1 p)) (Ideal.ofBits .f32 0x3F800000#32) := by
  rw [val_main_v63_apply, val_main_v62_apply, idx62_63, val_main_v61_apply, val_main_v60_apply,
    val_main_cst_15_apply, Ideal.maximumf_def, Ideal.ofBits_def]

/-! ### The score -/

/-- The sum over the feature axis reads row `r` at column `k`. -/
theorem idx105 (r : Fin 500000) (k : Fin 128) : idx_main_v105 (ix1 r) k = ix2 r k :=
  funext fun a => Fin.ext (by match a with | ⟨0, _⟩ => rfl | ⟨1, _⟩ => rfl)

/-! ## The stages at an entry

Each proof reads the outer pointwise operations and the two contractions at `(p, q)`, then compares the two sums term by
term: the own-rows terms agree once the indices are identified, the aggregation terms once the quotient and its divisor
are read at `(p, k)`. -/

/-- Layer 1, users. -/
theorem ref44 (x0 : (⟨S200000x128, .f32⟩ : BufTy).Contents (Elt Ideal)) (x1 : (⟨S100000x128, .f32⟩ : BufTy).Contents (Elt Ideal)) (x4 x5 : (⟨S2000000, .i32⟩ : BufTy).Contents (Elt Ideal)) (x8 x11 : (⟨S128x128, .f32⟩ : BufTy).Contents (Elt Ideal))
    (p : Fin 200000) (q : Fin 128) :
    val_main_v44 (F := Ideal) x0 x1 x4 x5 x8 x11 (ix2 p q)
      = Cert.Spec.relu (Cert.Spec.comb (fun p k => x0 (ix2 p k)) (fun p k => val_main_v28 (F := Ideal) x1 x4 x5 (ix2 p k))
          (fun p => val_main_v32 (F := Ideal) x5 (ix1 p)) (fun k q => x8 (ix2 k q)) (fun k q => x11 (ix2 k q)) p q) := by
  rw [val_main_v44_apply, val_main_v40_apply, val_main_v38_apply, val_main_v39_apply, val_main_call0_v0_apply, val_main_call0_cst_apply,
    Ideal.maximumf_def, Ideal.addf_def, Ideal.ofBits_def]
  unfold Cert.Spec.relu Cert.Spec.comb
  refine congrArg₂ max (congrArg₂ (· + ·) (Finset.sum_congr rfl fun k _ => ?_) (Finset.sum_congr rfl fun k _ => ?_)) rfl
  · rw [lidx38, ridx38]
  · rw [lidx39, ridx39, val_main_v37_apply, den36, Ideal.hostDivf_def]

/-- Layer 1, items. -/
theorem ref45 (x0 : (⟨S200000x128, .f32⟩ : BufTy).Contents (Elt Ideal)) (x1 : (⟨S100000x128, .f32⟩ : BufTy).Contents (Elt Ideal)) (x2 x3 : (⟨S2000000, .i32⟩ : BufTy).Contents (Elt Ideal)) (x9 x10 : (⟨S128x128, .f32⟩ : BufTy).Contents (Elt Ideal))
    (p : Fin 100000) (q : Fin 128) :
    val_main_v45 (F := Ideal) x0 x1 x2 x3 x9 x10 (ix2 p q)
      = Cert.Spec.relu (Cert.Spec.comb (fun p k => x1 (ix2 p k)) (fun p k => val_main_v9 (F := Ideal) x0 x2 x3 (ix2 p k))
          (fun p => val_main_v13 (F := Ideal) x3 (ix1 p)) (fun k q => x9 (ix2 k q)) (fun k q => x10 (ix2 k q)) p q) := by
  rw [val_main_v45_apply, val_main_v43_apply, val_main_v41_apply, val_main_v42_apply, val_main_call1_v0_apply, val_main_call1_cst_apply,
    Ideal.maximumf_def, Ideal.addf_def, Ideal.ofBits_def]
  unfold Cert.Spec.relu Cert.Spec.comb
  refine congrArg₂ max (congrArg₂ (· + ·) (Finset.sum_congr rfl fun k _ => ?_) (Finset.sum_congr rfl fun k _ => ?_)) rfl
  · rw [lidx41, ridx41]
  · rw [lidx42, ridx42, val_main_v18_apply, den17, Ideal.hostDivf_def]

/-- Layer 2, users. -/
theorem ref86 (x0 : (⟨S200000x128, .f32⟩ : BufTy).Contents (Elt Ideal)) (x1 : (⟨S100000x128, .f32⟩ : BufTy).Contents (Elt Ideal)) (x2 x3 x4 x5 : (⟨S2000000, .i32⟩ : BufTy).Contents (Elt Ideal)) (x8 x9 x10 x11 x12 x15 : (⟨S128x128, .f32⟩ : BufTy).Contents (Elt Ideal))
    (p : Fin 200000) (q : Fin 128) :
    val_main_v86 (F := Ideal) x0 x1 x2 x3 x4 x5 x8 x9 x10 x11 x12 x15 (ix2 p q)
      = Cert.Spec.comb (fun p k => val_main_v44 (F := Ideal) x0 x1 x4 x5 x8 x11 (ix2 p k))
          (fun p k => val_main_v74 (F := Ideal) x0 x1 x2 x3 x4 x5 x9 x10 (ix2 p k))
          (fun p => val_main_v78 (F := Ideal) x5 (ix1 p)) (fun k q => x12 (ix2 k q)) (fun k q => x15 (ix2 k q)) p q := by
  rw [val_main_v86_apply, val_main_v84_apply, val_main_v85_apply, Ideal.addf_def]
  unfold Cert.Spec.comb
  refine congrArg₂ (· + ·) (Finset.sum_congr rfl fun k _ => ?_) (Finset.sum_congr rfl fun k _ => ?_)
  · rw [lidx84, ridx84]
  · rw [lidx85, ridx85, val_main_v83_apply, den82, Ideal.hostDivf_def]

/-- Layer 2, items. -/
theorem ref89 (x0 : (⟨S200000x128, .f32⟩ : BufTy).Contents (Elt Ideal)) (x1 : (⟨S100000x128, .f32⟩ : BufTy).Contents (Elt Ideal)) (x2 x3 x4 x5 : (⟨S2000000, .i32⟩ : BufTy).Contents (Elt Ideal)) (x8 x9 x10 x11 x13 x14 : (⟨S128x128, .f32⟩ : BufTy).Contents (Elt Ideal))
    (p : Fin 100000) (q : Fin 128) :
    val_main_v89 (F := Ideal) x0 x1 x2 x3 x4 x5 x8 x9 x10 x11 x13 x14 (ix2 p q)
      = Cert.Spec.comb (fun p k => val_main_v45 (F := Ideal) x0 x1 x2 x3 x9 x10 (ix2 p k))
          (fun p k => val_main_v55 (F := Ideal) x0 x1 x2 x3 x4 x5 x8 x11 (ix2 p k))
          (fun p => val_main_v59 (F := Ideal) x3 (ix1 p)) (fun k q => x13 (ix2 k q)) (fun k q => x14 (ix2 k q)) p q := by
  rw [val_main_v89_apply, val_main_v87_apply, val_main_v88_apply, Ideal.addf_def]
  unfold Cert.Spec.comb
  refine congrArg₂ (· + ·) (Finset.sum_congr rfl fun k _ => ?_) (Finset.sum_congr rfl fun k _ => ?_)
  · rw [lidx87, ridx87]
  · rw [lidx88, ridx88, val_main_v64_apply, den63, Ideal.hostDivf_def]

/-- The score. -/
theorem ref105 (x0 : (⟨S200000x128, .f32⟩ : BufTy).Contents (Elt Ideal)) (x1 : (⟨S100000x128, .f32⟩ : BufTy).Contents (Elt Ideal)) (x2 x3 x4 x5 : (⟨S2000000, .i32⟩ : BufTy).Contents (Elt Ideal)) (x6 x7 : (⟨S500000, .i32⟩ : BufTy).Contents (Elt Ideal))
    (x8 x9 x10 x11 x12 x13 x14 x15 : (⟨S128x128, .f32⟩ : BufTy).Contents (Elt Ideal)) (r : Fin 500000) :
    val_main_v105 (F := Ideal) x0 x1 x2 x3 x4 x5 x6 x7 x8 x9 x10 x11 x12 x13 x14 x15 (ix1 r)
      = Cert.Spec.score (fun r k => val_main_v96 (F := Ideal) x0 x1 x2 x3 x4 x5 x6 x8 x9 x10 x11 x12 x15 (ix2 r k))
          (fun r k => val_main_v103 (F := Ideal) x0 x1 x2 x3 x4 x5 x7 x8 x9 x10 x11 x13 x14 (ix2 r k)) r := by
  rw [val_main_v105_apply, val_main_cst_26_apply, Ideal.ofBits_def, Ideal.ofBits_zero_f32, zero_add]
  unfold Cert.Spec.score
  refine Finset.sum_congr rfl fun k _ => ?_
  rw [idx105, val_main_v104_apply, Ideal.mulf_def]

end Cert.ReferenceIdeal.RefRead

end
-- ==== Proof.Stages.lean ====
/-
  The kernel program's intermediate arrays are the reference's stages.

  Both programs gather source rows along the edges and sum them into their destination nodes with the same host
  operations; they differ only in how a node type's update is computed from those sums — a pallas_call over row blocks in
  one, host matrix products in the other — and both compute `Cert.Spec.comb`. So, walking the kernel program's fold from
  the launch, each array a region or a host stretch leaves is, as a whole array, the stage of the reference that computes
  the same thing: the edge counts, the summed messages of each layer, each layer's updated rows, the gathered rows of the
  labelled pairs, and the scores. The shared gathers and segment sums are never opened: equal arrays go in, so equal
  arrays come out.
-/
import proofs.«134598_j69518340653459_2_alg».proof.Proof.Fold
import proofs.«134598_j69518340653459_2_alg».proof.Proof.Blocks0
import proofs.«134598_j69518340653459_2_alg».proof.Proof.Blocks1
import proofs.«134598_j69518340653459_2_alg».proof.Proof.Blocks2
import proofs.«134598_j69518340653459_2_alg».proof.Proof.Blocks3
import proofs.«134598_j69518340653459_2_alg».proof.Proof.Blocks4
import proofs.«134598_j69518340653459_2_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.Stages

open Idealize.ShloMosaic Idealize.ShloMosaic.TcCoe Idealize.ShloMosaic.ValueIdx Idealize.SL.Sem Idealize.ShloMosaic.StableHlo
open Cert.KernelIdeal Cert.KernelIdeal.Gen Cert.KernelIdeal.Fold Cert.KernelIdeal.Blocks
open Cert.ReferenceIdeal.Read Cert.ReferenceIdeal.RefRead

/-- A vector broadcast to a one-column matrix, read at row `p`. -/
theorem col_apply {n : ℕ} (h : (⟨1, ![n]⟩ : Shape).BroadcastsInDim ⟨2, ![n, 1]⟩ ![0]) (v : (⟨1, ![n]⟩ : Shape).Idx → EReal) (p : Fin n) :
    broadcastInDim ⟨2, ![n, 1]⟩ ![0] h v (ix2 p (0 : Fin 1)) = v (ix1 p) :=
  broadcastInDim_apply _ h v _ _ (fun a => by
    match a with
    | ⟨0, _⟩ =>
      show p.val = if n = 1 then 0 else p.val
      have hp := p.isLt
      split <;> omega)

/-- The users' count column at row `p`. -/
theorem colU (v : S200000.Idx → EReal) (p : Fin 200000) :
    broadcastInDim S200000x1 ![0] bcast_S200000_S200000x1_0 v (ix2 p (0 : Fin 1)) = v (ix1 p) := col_apply _ v p
/-- The items' count column at row `p`. -/
theorem colI (v : S100000.Idx → EReal) (p : Fin 100000) :
    broadcastInDim S100000x1 ![0] bcast_S100000_S100000x1_0 v (ix2 p (0 : Fin 1)) = v (ix1 p) := col_apply _ v p

/-- An update depends on the count column only through the node's own count. -/
theorem comb_count_congr {n : ℕ} (h s : Fin n → Fin 128 → EReal) (cnt cnt' : Fin n → EReal) (Ws Wa : Fin 128 → Fin 128 → EReal)
    (p : Fin n) (q : Fin 128) (hc : cnt p = cnt' p) :
    Cert.Spec.comb h s cnt Ws Wa p q = Cert.Spec.comb h s cnt' Ws Wa p q := by
  unfold Cert.Spec.comb; rw [hc]

variable (m : (ℓ : Loc nD τ sig) → Buf (Elt Ideal) ℓ) (ρ : Dev nD → PrngReg) (c : Dev nD)

/-- An argument array as launched. -/
abbrev ar (k : Ref sig .tc) : Buf (Elt Ideal) ((c : Thread nD τ).loc k) := m ((c : Thread nD τ).loc k)

/-! ## Layer 1 -/

theorem e1_arg0 : V1 m ρ c main_arg0 = ar m c main_arg0 := back1 m ρ c main_arg0 (by decide)
theorem e1_arg8 : V1 m ρ c main_arg8 = ar m c main_arg8 := back1 m ρ c main_arg8 (by decide)
theorem e1_arg11 : V1 m ρ c main_arg11 = ar m c main_arg11 := back1 m ρ c main_arg11 (by decide)

/-- The messages summed into the users, layer 1. -/
theorem e1_v29 : V1 m ρ c main_v29 = val_main_v28 (F := Ideal) (ar m c main_arg1) (ar m c main_arg4) (ar m c main_arg5) := by
  show StableHlo.after hostOps0 (W0 m ρ c) (Proc.devRef .tc main_v29) = _
  after_results_simp
  rfl

/-- The users' edge counts, as a column. -/
theorem e1_v9 : V1 m ρ c main_v9 = broadcastInDim S200000x1 ![0] bcast_S200000_S200000x1_0 (val_main_v32 (F := Ideal) (ar m c main_arg5)) := by
  show StableHlo.after hostOps0 (W0 m ρ c) (Proc.devRef .tc main_v9) = _
  after_results_simp
  rfl

/-- The users' rows after layer 1. -/
theorem users1 : (dat0 (V1 m ρ) c).arrAt 5 cfg0.N
    = val_main_v44 (F := Ideal) (ar m c main_arg0) (ar m c main_arg1) (ar m c main_arg4) (ar m c main_arg5) (ar m c main_arg8) (ar m c main_arg11) := by
  funext i
  obtain ⟨p, q, rfl⟩ : ∃ (p : Fin 200000) (q : Fin 128), i = ix2 p q := ⟨i 0, i 1, eq_ix2 i⟩
  refine (final0 (V1 m ρ) c p q).trans ?_
  rw [ref44, e1_arg0, e1_v29, e1_v9, e1_arg8, e1_arg11]
  exact congrArg Cert.Spec.relu (comb_count_congr _ _ _ _ _ _ p q (colU _ p))

theorem e2_arg1 : V2 m ρ c main_arg1 = ar m c main_arg1 := back2 m ρ c main_arg1 (by decide) (by decide)
theorem e2_arg9 : V2 m ρ c main_arg9 = ar m c main_arg9 := back2 m ρ c main_arg9 (by decide) (by decide)
theorem e2_arg10 : V2 m ρ c main_arg10 = ar m c main_arg10 := back2 m ρ c main_arg10 (by decide) (by decide)

/-- The messages summed into the items, layer 1. -/
theorem e2_v19 : V2 m ρ c main_v19 = val_main_v9 (F := Ideal) (ar m c main_arg0) (ar m c main_arg2) (ar m c main_arg3) :=
  (W2_of_ne m ρ c main_v19 (by decide)).trans (by
    show StableHlo.after hostOps0 (W0 m ρ c) (Proc.devRef .tc main_v19) = _
    after_results_simp
    rfl)

/-- The items' edge counts, as a column. -/
theorem e2_v4 : V2 m ρ c main_v4 = broadcastInDim S100000x1 ![0] bcast_S100000_S100000x1_0 (val_main_v13 (F := Ideal) (ar m c main_arg3)) :=
  (W2_of_ne m ρ c main_v4 (by decide)).trans (by
    show StableHlo.after hostOps0 (W0 m ρ c) (Proc.devRef .tc main_v4) = _
    after_results_simp
    rfl)

/-- The items' rows after layer 1. -/
theorem items1 : (dat1 (V2 m ρ) c).arrAt 5 cfg1.N = val_main_v45 (F := Ideal) (ar m c main_arg0) (ar m c main_arg1) (ar m c main_arg2) (ar m c main_arg3) (ar m c main_arg9) (ar m c main_arg10) := by
  funext i
  obtain ⟨p, q, rfl⟩ : ∃ (p : Fin 100000) (q : Fin 128), i = ix2 p q := ⟨i 0, i 1, eq_ix2 i⟩
  refine (final1 (V2 m ρ) c p q).trans ?_
  rw [ref45, e2_arg1, e2_v19, e2_v4, e2_arg9, e2_arg10]
  exact congrArg Cert.Spec.relu (comb_count_congr _ _ _ _ _ _ p q (colI _ p))

/-! ## Between the layers: what the second host stretch starts from -/

theorem w3_v30 : W3 m ρ c (Proc.devRef .tc main_v30) = val_main_v44 (F := Ideal) (ar m c main_arg0) (ar m c main_arg1) (ar m c main_arg4) (ar m c main_arg5) (ar m c main_arg8) (ar m c main_arg11) :=
  (W3_of_ne m ρ c main_v30 (by decide)).trans ((W2_arr m ρ c 5).trans (users1 m ρ c))
theorem w3_v31 : W3 m ρ c (Proc.devRef .tc main_v31) = val_main_v45 (F := Ideal) (ar m c main_arg0) (ar m c main_arg1) (ar m c main_arg2) (ar m c main_arg3) (ar m c main_arg9) (ar m c main_arg10) :=
  (W3_arr m ρ c 5).trans (items1 m ρ c)
theorem w3_v9 : W3 m ρ c (Proc.devRef .tc main_v9) = broadcastInDim S200000x1 ![0] bcast_S200000_S200000x1_0 (val_main_v32 (F := Ideal) (ar m c main_arg5)) :=
  (W3_of_ne m ρ c main_v9 (by decide)).trans ((W2_arr m ρ c 2).trans (((dat0 (V1 m ρ) c).arrAt_in 2 rfl _).trans ((A_eq0 (V1 m ρ) c 2).trans (e1_v9 m ρ c))))
theorem w3_v4 : W3 m ρ c (Proc.devRef .tc main_v4) = broadcastInDim S100000x1 ![0] bcast_S100000_S100000x1_0 (val_main_v13 (F := Ideal) (ar m c main_arg3)) :=
  (W3_arr m ρ c 2).trans (((dat1 (V2 m ρ) c).arrAt_in 2 rfl _).trans ((A_eq1 (V2 m ρ) c 2).trans (e2_v4 m ρ c)))
theorem w3_arg2 : W3 m ρ c (Proc.devRef .tc main_arg2) = ar m c main_arg2 := back3 m ρ c main_arg2 (by decide) (by decide) (by decide)
theorem w3_arg3 : W3 m ρ c (Proc.devRef .tc main_arg3) = ar m c main_arg3 := back3 m ρ c main_arg3 (by decide) (by decide) (by decide)
theorem w3_arg4 : W3 m ρ c (Proc.devRef .tc main_arg4) = ar m c main_arg4 := back3 m ρ c main_arg4 (by decide) (by decide) (by decide)
theorem w3_arg5 : W3 m ρ c (Proc.devRef .tc main_arg5) = ar m c main_arg5 := back3 m ρ c main_arg5 (by decide) (by decide) (by decide)

/-! ## Layer 2 -/

theorem e4_v30 : V4 m ρ c main_v30 = val_main_v44 (F := Ideal) (ar m c main_arg0) (ar m c main_arg1) (ar m c main_arg4) (ar m c main_arg5) (ar m c main_arg8) (ar m c main_arg11) :=
  (keep4 m ρ c main_v30 (by decide)).trans (w3_v30 m ρ c)
theorem e4_arg12 : V4 m ρ c main_arg12 = ar m c main_arg12 := back4 m ρ c main_arg12 (by decide) (by decide) (by decide) (by decide)
theorem e4_arg15 : V4 m ρ c main_arg15 = ar m c main_arg15 := back4 m ρ c main_arg15 (by decide) (by decide) (by decide) (by decide)

/-- The users' edge counts again: the reference recomputes them in layer 2, the kernel program reuses layer 1's. -/
theorem e4_v9 : V4 m ρ c main_v9 = broadcastInDim S200000x1 ![0] bcast_S200000_S200000x1_0 (val_main_v78 (F := Ideal) (ar m c main_arg5)) :=
  (keep4 m ρ c main_v9 (by decide)).trans ((w3_v9 m ρ c).trans rfl)

/-- The messages summed into the users, layer 2: the items' layer-1 rows gathered along the edges. -/
theorem e4_v53 : V4 m ρ c main_v53 = val_main_v74 (F := Ideal) (ar m c main_arg0) (ar m c main_arg1) (ar m c main_arg2) (ar m c main_arg3) (ar m c main_arg4) (ar m c main_arg5) (ar m c main_arg9) (ar m c main_arg10) := by
  show StableHlo.after hostOps2 (W3 m ρ c) (Proc.devRef .tc main_v53) = _
  after_results_simp
  rw [w3_v31, w3_arg4, w3_arg5]
  rfl

/-- The users' rows after layer 2. -/
theorem users2 : (dat2 (V4 m ρ) c).arrAt 5 cfg2.N = val_main_v86 (F := Ideal) (ar m c main_arg0) (ar m c main_arg1) (ar m c main_arg2) (ar m c main_arg3) (ar m c main_arg4) (ar m c main_arg5) (ar m c main_arg8) (ar m c main_arg9) (ar m c main_arg10) (ar m c main_arg11) (ar m c main_arg12) (ar m c main_arg15) := by
  funext i
  obtain ⟨p, q, rfl⟩ : ∃ (p : Fin 200000) (q : Fin 128), i = ix2 p q := ⟨i 0, i 1, eq_ix2 i⟩
  refine (final2 (V4 m ρ) c p q).trans ?_
  rw [ref86, e4_v30, e4_v53, e4_v9, e4_arg12, e4_arg15]
  exact comb_count_congr _ _ _ _ _ _ p q (colU _ p)

theorem e5_v31 : V5 m ρ c main_v31 = val_main_v45 (F := Ideal) (ar m c main_arg0) (ar m c main_arg1) (ar m c main_arg2) (ar m c main_arg3) (ar m c main_arg9) (ar m c main_arg10) :=
  (W5_of_ne m ρ c main_v31 (by decide)).trans ((keep4 m ρ c main_v31 (by decide)).trans (w3_v31 m ρ c))
theorem e5_arg13 : V5 m ρ c main_arg13 = ar m c main_arg13 := back5 m ρ c main_arg13 (by decide) (by decide) (by decide) (by decide) (by decide)
theorem e5_arg14 : V5 m ρ c main_arg14 = ar m c main_arg14 := back5 m ρ c main_arg14 (by decide) (by decide) (by decide) (by decide) (by decide)

/-- The items' edge counts again. -/
theorem e5_v4 : V5 m ρ c main_v4 = broadcastInDim S100000x1 ![0] bcast_S100000_S100000x1_0 (val_main_v59 (F := Ideal) (ar m c main_arg3)) :=
  (W5_of_ne m ρ c main_v4 (by decide)).trans ((keep4 m ρ c main_v4 (by decide)).trans ((w3_v4 m ρ c).trans rfl))

/-- The messages summed into the items, layer 2: the users' layer-1 rows gathered along the edges. -/
theorem e5_v42 : V5 m ρ c main_v42 = val_main_v55 (F := Ideal) (ar m c main_arg0) (ar m c main_arg1) (ar m c main_arg2) (ar m c main_arg3) (ar m c main_arg4) (ar m c main_arg5) (ar m c main_arg8) (ar m c main_arg11) :=
  (W5_of_ne m ρ c main_v42 (by decide)).trans (by
    show StableHlo.after hostOps2 (W3 m ρ c) (Proc.devRef .tc main_v42) = _
    after_results_simp
    rw [w3_v30, w3_arg2, w3_arg3]
    rfl)

/-- The items' rows after layer 2. -/
theorem items2 : (dat3 (V5 m ρ) c).arrAt 5 cfg3.N = val_main_v89 (F := Ideal) (ar m c main_arg0) (ar m c main_arg1) (ar m c main_arg2) (ar m c main_arg3) (ar m c main_arg4) (ar m c main_arg5) (ar m c main_arg8) (ar m c main_arg9) (ar m c main_arg10) (ar m c main_arg11) (ar m c main_arg13) (ar m c main_arg14) := by
  funext i
  obtain ⟨p, q, rfl⟩ : ∃ (p : Fin 100000) (q : Fin 128), i = ix2 p q := ⟨i 0, i 1, eq_ix2 i⟩
  refine (final3 (V5 m ρ) c p q).trans ?_
  rw [ref89, e5_v31, e5_v42, e5_v4, e5_arg13, e5_arg14]
  exact comb_count_congr _ _ _ _ _ _ p q (colI _ p)

/-! ## The labelled pairs -/

theorem w6_v54 : W6 m ρ c (Proc.devRef .tc main_v54) = val_main_v86 (F := Ideal) (ar m c main_arg0) (ar m c main_arg1) (ar m c main_arg2) (ar m c main_arg3) (ar m c main_arg4) (ar m c main_arg5) (ar m c main_arg8) (ar m c main_arg9) (ar m c main_arg10) (ar m c main_arg11) (ar m c main_arg12) (ar m c main_arg15) :=
  (W6_of_ne m ρ c main_v54 (by decide)).trans ((W5_arr m ρ c 5).trans (users2 m ρ c))
theorem w6_v55 : W6 m ρ c (Proc.devRef .tc main_v55) = val_main_v89 (F := Ideal) (ar m c main_arg0) (ar m c main_arg1) (ar m c main_arg2) (ar m c main_arg3) (ar m c main_arg4) (ar m c main_arg5) (ar m c main_arg8) (ar m c main_arg9) (ar m c main_arg10) (ar m c main_arg11) (ar m c main_arg13) (ar m c main_arg14) :=
  (W6_arr m ρ c 5).trans (items2 m ρ c)
theorem w6_arg6 : W6 m ρ c (Proc.devRef .tc main_arg6) = ar m c main_arg6 := back6 m ρ c main_arg6 (by decide) (by decide) (by decide) (by decide) (by decide) (by decide)
theorem w6_arg7 : W6 m ρ c (Proc.devRef .tc main_arg7) = ar m c main_arg7 := back6 m ρ c main_arg7 (by decide) (by decide) (by decide) (by decide) (by decide) (by decide)

/-- The users' layer-2 rows of the labelled pairs. -/
theorem e7_v62 : V7 m ρ c main_v62 = val_main_v96 (F := Ideal) (ar m c main_arg0) (ar m c main_arg1) (ar m c main_arg2) (ar m c main_arg3) (ar m c main_arg4) (ar m c main_arg5) (ar m c main_arg6) (ar m c main_arg8) (ar m c main_arg9) (ar m c main_arg10) (ar m c main_arg11) (ar m c main_arg12) (ar m c main_arg15) := by
  show StableHlo.after hostOps4 (W6 m ρ c) (Proc.devRef .tc main_v62) = _
  after_results_simp
  rw [w6_v54, w6_arg6]
  rfl

/-- The items' layer-2 rows of the labelled pairs. -/
theorem e7_v69 : V7 m ρ c main_v69 = val_main_v103 (F := Ideal) (ar m c main_arg0) (ar m c main_arg1) (ar m c main_arg2) (ar m c main_arg3) (ar m c main_arg4) (ar m c main_arg5) (ar m c main_arg7) (ar m c main_arg8) (ar m c main_arg9) (ar m c main_arg10) (ar m c main_arg11) (ar m c main_arg13) (ar m c main_arg14) := by
  show StableHlo.after hostOps4 (W6 m ρ c) (Proc.devRef .tc main_v69) = _
  after_results_simp
  rw [w6_v55, w6_arg7]
  rfl

/-- The scores, as the one-column array the last region writes. -/
theorem scores (r : Fin 500000) : ((dat4 (V7 m ρ) c).arrAt 2 cfg4.N : S500000x1.Idx → EReal) (ix2 r (0 : Fin 1))
    = val_main_v105 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) (ix1 r) := by
  refine (final4 (V7 m ρ) c r).trans ?_
  rw [ref105, e7_v62, e7_v69]

/-- THE RESULT: the buffer the kernel program returns holds the reference's result stage of the launch arguments. -/
theorem result : W9 m ρ c (Proc.devRef .tc main_v71) = val_main_v105 (F := Ideal) (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) := by
  show StableHlo.after hostOps5 (W8 m ρ c) (Proc.devRef .tc main_v71) = _
  after_results_simp
  funext i
  obtain ⟨r, rfl⟩ : ∃ r : Fin 500000, i = ix1 r := ⟨i 0, eq_ix1 i⟩
  show shapeCast S500000 (W8 m ρ c (Proc.devRef .tc main_v70)) shapeCasts_S500000x1_S500000 (ix1 r) = _
  rw [shapeCast_apply (W8 m ρ c (Proc.devRef .tc main_v70)) shapeCasts_S500000x1_S500000 (ix1 r) (ix2 r (0 : Fin 1))
    (by
      show ((⟨2, ![500000, 1]⟩ : Shape).rowMajor (ix2 r (0 : Fin 1))).val = ((⟨1, ![500000]⟩ : Shape).rowMajor (ix1 r)).val
      rw [Shape.rowMajor_val_two, Shape.rowMajor_val_one]; show r.val * 1 + 0 = r.val; omega)]
  exact (congrFun (W8_arr m ρ c 2) (ix2 r (0 : Fin 1))).trans (scores m ρ c r)

end Cert.KernelIdeal.Stages

end
-- ==== Proof.lean ====
/-
  The certificate: a two-layer heterogeneous GraphSAGE encoder with a dot-product score, as a Pallas kernel program
  against its jnp reference, equal on the extended reals.

  Both programs gather source rows along the edges, sum them into the destination nodes, divide by the edge counts
  floored at one, take the node's own rows and the mean through two weight matrices, clamp the first layer at zero, and
  score each labelled pair by the inner product of its two second-layer rows. The kernel program computes each node type's
  update in a pallas_call over blocks of 4000 rows and the scores in a fifth; the reference uses host matrix products. On the
  extended reals every change of float format is the identity and a blocked sum is the whole sum, so the two results are one
  function of the arguments: no algebraic law beyond that is used, and the precondition is never opened. The three frames are
  the generated ones (the reference's is its run with the result dropped); the idealization rewrote nothing.
-/
import proofs.«134598_j69518340653459_2_alg».proof.Defs
import proofs.«134598_j69518340653459_2_alg».proof.Proof.Gen.Kernel
import proofs.«134598_j69518340653459_2_alg».proof.Proof.Gen.Kernel.Skeleton
import proofs.«134598_j69518340653459_2_alg».proof.Proof.Gen.Kernel.Launch
import proofs.«134598_j69518340653459_2_alg».proof.Proof.Gen.Kernel.Points
import proofs.«134598_j69518340653459_2_alg».proof.Proof.Gen.Kernel.Frame
import proofs.«134598_j69518340653459_2_alg».proof.Proof.Gen.KernelIdeal
import proofs.«134598_j69518340653459_2_alg».proof.Proof.Gen.KernelIdeal.Skeleton
import proofs.«134598_j69518340653459_2_alg».proof.Proof.Gen.KernelIdeal.Launch
import proofs.«134598_j69518340653459_2_alg».proof.Proof.Gen.KernelIdeal.Points
import proofs.«134598_j69518340653459_2_alg».proof.Proof.Gen.KernelIdeal.Frame
import proofs.«134598_j69518340653459_2_alg».proof.Proof.Gen.ReferenceIdeal
import proofs.«134598_j69518340653459_2_alg».proof.Proof.Gen.ReferenceIdeal.Run
import proofs.«134598_j69518340653459_2_alg».proof.Proof.Gen.ReferenceIdeal.Read
import proofs.«134598_j69518340653459_2_alg».proof.Proof.Gen.Pre_finite_inputs
import proofs.«134598_j69518340653459_2_alg».proof.Proof.KernelRun
import proofs.«134598_j69518340653459_2_alg».proof.Proof.Stages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and the kernel program's result buffer holds the
    reference's result stage of the arguments (`Cert.KernelIdeal.Stages.result`), which is what the reference's run leaves
    in its own result buffer. -/
theorem algebraic : Cert.algebraic_KernelIdeal_ReferenceIdeal := by
  intro m ρ m' ρ' _ hagree
  refine ⟨fun c => Cert.KernelIdeal.Gen.W9 m ρ c (Proc.devRef .tc Cert.KernelIdeal.main_v71), Cert.KernelIdeal.RunV.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v105_eq, h0, h1, h2, h3, h4, h5, h6, h7, h8, h9, h10, h11, h12, h13, h14, h15]
  exact (Cert.KernelIdeal.Stages.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
